-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S64x64x20 : Shape := ⟨3, ![64, 64, 20]⟩
abbrev S64x64 : Shape := ⟨2, ![64, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S64x64x20 : S_.BroadcastsInDim S64x64x20 (![] : Fin 0 → Fin S64x64x20.rank)
  reducesTo_S64x64x20_S_d0_1_2 : S64x64x20.ReducesTo [0, 1, 2] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_arg5 : FVec F S64x64 .f32) (main_v13 : IVec S_ 1) (main_v16 : IVec S64x64x20 1) : IVec S_ 1 :=
  let main_c_5 : IVec S_ 1 := constantI S_ 1 1#1
  let main_v17 : IVec S_ 1 := (fun x v => Host.reduce IntOp.andi x v reducesTo_S64x64x20_S_d0_1_2 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  main_v28

def fn {F : FTy → Type} [FloatOps F] (main_arg0 : FVec F S1024x64 .f32) (main_arg1 : FVec F S64x64x20 .f32) (main_arg2 : FVec F S64x64x20 .f32) (main_arg3 : FVec F S64x64x20 .f32) (main_arg4 : FVec F S64x64 .f32) (main_arg5 : FVec F S64x64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S64x64x20 .f32 := Host.absf main_arg1
  let main_cst_0 : FVec F S_ .f32 := constant S_ .f32 0x7F800000#32
  let main_v5 : FVec F S64x64x20 .f32 := broadcastInDim S64x64x20 ![] bcast_S_S64x64x20 main_cst_0
  let main_v6 : IVec S64x64x20 1 := cmpf .olt main_v4 main_v5
  let main_c_1 : IVec S_ 1 := constantI S_ 1 1#1
  let main_v7 : IVec S_ 1 := (fun x v => Host.reduce IntOp.andi x v reducesTo_S64x64x20_S_d0_1_2 h_S_) main_v6 main_c_1
  let main_v8 : IVec S_ 1 := andi main_v3 main_v7
  let main_v9 : FVec F S64x64x20 .f32 := Host.absf main_arg2
  let main_cst_2 : FVec F S_ .f32 := constant S_ .f32 0x7F800000#32
  let main_v10 : FVec F S64x64x20 .f32 := broadcastInDim S64x64x20 ![] bcast_S_S64x64x20 main_cst_2
  let main_v11 : IVec S64x64x20 1 := cmpf .olt main_v9 main_v10
  let main_c_3 : IVec S_ 1 := constantI S_ 1 1#1
  let main_v12 : IVec S_ 1 := (fun x v => Host.reduce IntOp.andi x v reducesTo_S64x64x20_S_d0_1_2 h_S_) main_v11 main_c_3
  let main_v13 : IVec S_ 1 := andi main_v8 main_v12
  let main_v14 : FVec F S64x64x20 .f32 := Host.absf main_arg3
  let main_cst_4 : FVec F S_ .f32 := constant S_ .f32 0x7F800000#32
  let main_v15 : FVec F S64x64x20 .f32 := broadcastInDim S64x64x20 ![] bcast_S_S64x64x20 main_cst_4
  let main_v16 : IVec S64x64x20 1 := cmpf .olt main_v14 main_v15
  fn_part1 (F := F) main_arg4 main_arg5 main_v13 main_v16
-- ==== Kernel.lean ====
abbrev S1024x64 : Shape := ⟨2, ![1024, 64]⟩
abbrev S64x64x20 : Shape := ⟨3, ![64, 64, 20]⟩
abbrev S64x64 : Shape := ⟨2, ![64, 64]⟩
abbrev S20x64x64 : Shape := ⟨3, ![20, 64, 64]⟩
abbrev S128x64 : Shape := ⟨2, ![128, 64]⟩
abbrev S128x1x64 : Shape := ⟨3, ![128, 1, 64]⟩
abbrev S128x64x64 : Shape := ⟨3, ![128, 64, 64]⟩
abbrev S1x64x64 : Shape := ⟨3, ![1, 64, 64]⟩

abbrev nBuf : Space → Nat
  | .hbm => 11
  | .vmem => 11
  | .smem => 0
  | _ => 0

abbrev bufTy : (tb : Table) → Fin (tcTables nBuf tb) → BufTy
  | .hbm, ⟨0, _⟩ => ⟨S1024x64, .f32⟩
  | .hbm, ⟨1, _⟩ => ⟨S64x64x20, .f32⟩
  | .hbm, ⟨2, _⟩ => ⟨S64x64x20, .f32⟩
  | .hbm, ⟨3, _⟩ => ⟨S64x64x20, .f32⟩
  | .hbm, ⟨4, _⟩ => ⟨S64x64, .f32⟩
  | .hbm, ⟨5, _⟩ => ⟨S64x64, .f32⟩
  | .hbm, ⟨6, _⟩ => ⟨S20x64x64, .f32⟩
  | .hbm, ⟨7, _⟩ => ⟨S20x64x64, .f32⟩
  | .hbm, ⟨8, _⟩ => ⟨S20x64x64, .f32⟩
  | .hbm, ⟨9, _⟩ => ⟨S1024x64, .f32⟩
  | .hbm, ⟨10, _⟩ => ⟨S1024x64, .f32⟩
  | .local _ .vmem, ⟨0, _⟩ => ⟨S128x64, .f32⟩
  | .local _ .vmem, ⟨1, _⟩ => ⟨S128x64, .f32⟩
  | .local _ .vmem, ⟨2, _⟩ => ⟨S20x64x64, .f32⟩
  | .local _ .vmem, ⟨3, _⟩ => ⟨S20x64x64, .f32⟩
  | .local _ .vmem, ⟨4, _⟩ => ⟨S20x64x64, .f32⟩
  | .local _ .vmem, ⟨5, _⟩ => ⟨S64x64, .f32⟩
  | .local _ .vmem, ⟨6, _⟩ => ⟨S64x64, .f32⟩
  | .local _ .vmem, ⟨7, _⟩ => ⟨S128x64, .f32⟩
  | .local _ .vmem, ⟨8, _⟩ => ⟨S128x64, .f32⟩
  | .local _ .vmem, ⟨9, _⟩ => ⟨S128x64, .f32⟩
  | .local _ .vmem, ⟨10, _⟩ => ⟨S128x64, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c20_i32 : BitVec 32 := 20#32
  let v24 : BitVec 32 := Scalar.addi c0_i32 c20_i32
  let c1_i32 : BitVec 32 := 1#32
  ⟨c0_i32, v24, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let v32 : Index := Scalar.indexCast arg9
  let c0_18 : Index := 0#32
  let c0_19 : Index := 0#32
  ![v32.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S20x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S64x64x20_S20x64x64_2_0_1 : S64x64x20.Transposes [2, 0, 1] S20x64x64
  inb_S64x64_S64x64_0_0 : ∀ a, (![0, 0] : Fin 2 → Nat) a + S64x64.size a ≤ S64x64.size a
  h_S64x64 : 0 < S64x64.numel
  inb_S128x64_S128x64_0_0 : ∀ a, (![0, 0] : Fin 2 → Nat) a + S128x64.size a ≤ S128x64.size a
  h_S128x64 : 0 < S128x64.numel
  shapeCasts_S128x64_S128x1x64 : S128x64.ShapeCasts S128x1x64
  shapeCasts_S128x1x64_S128x1x64 : S128x1x64.ShapeCasts S128x1x64
  broadcasts_S128x1x64_S128x64x64 : S128x1x64.Broadcasts S128x64x64
  h_S1x64x64 : 0 < S1x64x64.numel
  shapeCasts_S1x64x64_S64x64 : S1x64x64.ShapeCasts S64x64
  shapeCasts_S64x64_S1x64x64 : S64x64.ShapeCasts S1x64x64
  broadcasts_S1x64x64_S128x64x64 : S1x64x64.Broadcasts S128x64x64
  reduces_S128x64x64_S128x64 : S128x64x64.Reduces [2] S128x64
  hrank0 : 0 < grid0.rank
  k0_t1_ok : k0_t1_loop.OK
  k0_off1_inb : ∀ k0_t1 : Fin k0_t1_loop.trips, ∀ a, (k0_off1 k0_t1) a + S1x64x64.size a ≤ S20x64x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S1024x64.size a
  hwx0_0 : ∀ i : grid0.Coords, EltTy.bits .f32 = 32 ∨ (Rect.block (s := S1024x64) S128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x64x64.size a ≤ S20x64x64.size a
  hwx0_1 : ∀ i : grid0.Coords, EltTy.bits .f32 = 32 ∨ (Rect.block (s := S20x64x64) S20x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20x64x64.size a ≤ S20x64x64.size a
  hwx0_2 : ∀ i : grid0.Coords, EltTy.bits .f32 = 32 ∨ (Rect.block (s := S20x64x64) S20x64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x64x64.size a ≤ S20x64x64.size a
  hwx0_3 : ∀ i : grid0.Coords, EltTy.bits .f32 = 32 ∨ (Rect.block (s := S20x64x64) S20x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S1024x64.size a
  hwx0_6 : ∀ i : grid0.Coords, EltTy.bits .f32 = 32 ∨ (Rect.block (s := S1024x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S1024x64.size a
  hwx0_7 : ∀ i : grid0.Coords, EltTy.bits .f32 = 32 ∨ (Rect.block (s := S1024x64) S128x64.size (cc0_transform_7 i) (hinb0_7 i)).WholeWords (EltTy.packing .f32)

variable [Facts₀]

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S20x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S20x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S20x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S128x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S128x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1024x64 : Shape := ⟨2, ![1024, 64]⟩
abbrev S64x64x20 : Shape := ⟨3, ![64, 64, 20]⟩
abbrev S64x64 : Shape := ⟨2, ![64, 64]⟩
abbrev S_ : Shape := ⟨0, ![]⟩
abbrev S1024x1x64x1 : Shape := ⟨4, ![1024, 1, 64, 1]⟩
abbrev S1x64x64x20 : Shape := ⟨4, ![1, 64, 64, 20]⟩
abbrev S1x64x64x1 : Shape := ⟨4, ![1, 64, 64, 1]⟩
abbrev S1024x64x64x20 : Shape := ⟨4, ![1024, 64, 64, 20]⟩
abbrev S1024x64x64x1 : Shape := ⟨4, ![1024, 64, 64, 1]⟩
abbrev S1024x64x64 : Shape := ⟨3, ![1024, 64, 64]⟩

abbrev nBuf : Space → Nat
  | .hbm => 93
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S64x64x20, .f32⟩
  | .hbm, ⟨2, _⟩ => ⟨S64x64x20, .f32⟩
  | .hbm, ⟨3, _⟩ => ⟨S64x64x20, .f32⟩
  | .hbm, ⟨4, _⟩ => ⟨S64x64, .f32⟩
  | .hbm, ⟨5, _⟩ => ⟨S64x64, .f32⟩
  | .hbm, ⟨6, _⟩ => ⟨S_, .f32⟩
  | .hbm, ⟨7, _⟩ => ⟨S1024x64, .f32⟩
  | .hbm, ⟨8, _⟩ => ⟨S64x64x20, .f32⟩
  | .hbm, ⟨9, _⟩ => ⟨S_, .f32⟩
  | .hbm, ⟨10, _⟩ => ⟨S_, .f32⟩
  | .hbm, ⟨11, _⟩ => ⟨S64x64x20, .f32⟩
  | .hbm, ⟨12, _⟩ => ⟨S64x64x20, .f32⟩
  | .hbm, ⟨13, _⟩ => ⟨S64x64, .f32⟩
  | .hbm, ⟨14, _⟩ => ⟨S_, .f32⟩
  | .hbm, ⟨15, _⟩ => ⟨S_, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S_, .f32⟩
  | .hbm, ⟨21, _⟩ => ⟨S64x64, .f32⟩
  | .hbm, ⟨22, _⟩ => ⟨S64x64, .f32⟩
  | .hbm, ⟨23, _⟩ => ⟨S1024x1x64x1, .f32⟩
  | .hbm, ⟨24, _⟩ => ⟨S1024x1x64x1, .f32⟩
  | .hbm, ⟨25, _⟩ => ⟨S1x64x64x20, .f32⟩
  | .hbm, ⟨26, _⟩ => ⟨S64x64, .f32⟩
  | .hbm, ⟨27, _⟩ => ⟨S1x64x64x1, .f32⟩
  | .hbm, ⟨28, _⟩ => ⟨S1x64x64x1, .f32⟩
  | .hbm, ⟨29, _⟩ => ⟨S1024x64x64x20, .f32⟩
  | .hbm, ⟨30, _⟩ => ⟨S1024x64x64x20, .f32⟩
  | .hbm, ⟨31, _⟩ => ⟨S1024x64x64x20, .f32⟩
  | .hbm, ⟨32, _⟩ => ⟨S1024x64x64x20, .f32⟩
  | .hbm, ⟨33, _⟩ => ⟨S1024x64x64x1, .f32⟩
  | .hbm, ⟨34, _⟩ => ⟨S1024x64x64x1, .f32⟩
  | .hbm, ⟨35, _⟩ => ⟨S1024x64x64x1, .f32⟩
  | .hbm, ⟨36, _⟩ => ⟨S1024x64x64x1, .f32⟩
  | .hbm, ⟨37, _⟩ => ⟨S1024x64x64x1, .f32⟩
  | .hbm, ⟨38, _⟩ => ⟨S1024x64x64x1, .f32⟩
  | .hbm, ⟨39, _⟩ => ⟨S1024x64x64x1, .f32⟩
  | .hbm, ⟨40, _⟩ => ⟨S1024x64x64x1, .f32⟩
  | .hbm, ⟨41, _⟩ => ⟨S1024x64x64x20, .f32⟩
  | .hbm, ⟨42, _⟩ => ⟨S_, .f32⟩
  | .hbm, ⟨43, _⟩ => ⟨S1024x64x64x1, .f32⟩
  | .hbm, ⟨44, _⟩ => ⟨S1024x64x64x1, .f32⟩
  | .hbm, ⟨45, _⟩ => ⟨S1024x64x64x20, .f32⟩
  | .hbm, ⟨46, _⟩ => ⟨S1024x64x64x20, .f32⟩
  | .hbm, ⟨47, _⟩ => ⟨S1024x64x64x20, .f32⟩
  | .hbm, ⟨48, _⟩ => ⟨S1024x64x64x20, .f32⟩
  | .hbm, ⟨49, _⟩ => ⟨S1024x64x64x20, .f32⟩
  | .hbm, ⟨50, _⟩ => ⟨S_, .f32⟩
  | .hbm, ⟨51, _⟩ => ⟨S1024x1x64x1, .f32⟩
  | .hbm, ⟨52, _⟩ => ⟨S1024x1x64x1, .f32⟩
  | .hbm, ⟨53, _⟩ => ⟨S1024x64x64x1, .f32⟩
  | .hbm, ⟨54, _⟩ => ⟨S1024x64x64x1, .f32⟩
  | .hbm, ⟨55, _⟩ => ⟨S1024x64x64x1, .f32⟩
  | .hbm, ⟨56, _⟩ => ⟨S1x64x64x1, .f32⟩
  | .hbm, ⟨57, _⟩ => ⟨S1024x64x64x1, .f32⟩
  | .hbm, ⟨58, _⟩ => ⟨S1024x64x64x1, .f32⟩
  | .hbm, ⟨59, _⟩ => ⟨S1024x64x64x1, .f32⟩
  | .hbm, ⟨60, _⟩ => ⟨S1024x64x64x1, .f32⟩
  | .hbm, ⟨61, _⟩ => ⟨S1024x64x64x1, .f32⟩
  | .hbm, ⟨62, _⟩ => ⟨S1024x64x64x20, .f32⟩
  | .hbm, ⟨63, _⟩ => ⟨S1024x64x64x20, .f32⟩
  | .hbm, ⟨64, _⟩ => ⟨S1024x64x64x20, .f32⟩
  | .hbm, ⟨65, _⟩ => ⟨S1024x64x64x20, .f32⟩
  | .hbm, ⟨66, _⟩ => ⟨S1024x64x64x20, .f32⟩
  | .hbm, ⟨67, _⟩ => ⟨S1024x64x64x20, .f32⟩
  | .hbm, ⟨68, _⟩ => ⟨S1x64x64x20, .f32⟩
  | .hbm, ⟨69, _⟩ => ⟨S1x64x64x20, .f32⟩
  | .hbm, ⟨70, _⟩ => ⟨S1024x64x64x20, .f32⟩
  | .hbm, ⟨71, _⟩ => ⟨S1024x64x64x20, .f32⟩
  | .hbm, ⟨72, _⟩ => ⟨S_, .f32⟩
  | .hbm, ⟨73, _⟩ => ⟨S1024x64x64, .f32⟩
  | .hbm, ⟨74, _⟩ => ⟨S1x64x64x20, .f32⟩
  | .hbm, ⟨75, _⟩ => ⟨S1x64x64x20, .f32⟩
  | .hbm, ⟨76, _⟩ => ⟨S1024x64x64x20, .f32⟩
  | .hbm, ⟨77, _⟩ => ⟨S1024x64x64x20, .f32⟩
  | .hbm, ⟨78, _⟩ => ⟨S1024x64x64x20, .f32⟩
  | .hbm, ⟨79, _⟩ => ⟨S1x64x64x20, .f32⟩
  | .hbm, ⟨80, _⟩ => ⟨S1024x64x64x20, .f32⟩
  | .hbm, ⟨81, _⟩ => ⟨S1024x64x64x20, .f32⟩
  | .hbm, ⟨82, _⟩ => ⟨S1024x64x64x20, .f32⟩
  | .hbm, ⟨83, _⟩ => ⟨S_, .f32⟩
  | .hbm, ⟨84, _⟩ => ⟨S1024x64x64, .f32⟩
  | .hbm, ⟨85, _⟩ => ⟨S_, .f32⟩
  | .hbm, ⟨86, _⟩ => ⟨S_, .f32⟩
  | .hbm, ⟨87, _⟩ => ⟨S1024x64x64, .f32⟩
  | .hbm, ⟨88, _⟩ => ⟨S1024x64x64, .f32⟩
  | .hbm, ⟨89, _⟩ => ⟨S_, .f32⟩
  | .hbm, ⟨90, _⟩ => ⟨S1024x64, .f32⟩
  | .hbm, ⟨91, _⟩ => ⟨S_, .f32⟩
  | .hbm, ⟨92, _⟩ => ⟨S1024x64, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call1_v0 : Ref sig .tc := ⟨.hbm, 15, rfl⟩
abbrev main_call1_v1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_call2_v0 : Ref sig .tc := ⟨.hbm, 20, rfl⟩
abbrev main_call2_v1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_5 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_6 : Ref sig .tc := ⟨.hbm, 83, rfl⟩
abbrev main_v64 : Ref sig .tc := ⟨.hbm, 84, rfl⟩
abbrev main_cst_7 : Ref sig .tc := ⟨.hbm, 85, rfl⟩
abbrev main_call3_v0 : Ref sig .tc := ⟨.hbm, 86, rfl⟩
abbrev main_call3_v1 : Ref sig .tc := ⟨.hbm, 87, rfl⟩
abbrev main_v65 : Ref sig .tc := ⟨.hbm, 88, rfl⟩
abbrev main_cst_8 : Ref sig .tc := ⟨.hbm, 89, rfl⟩
abbrev main_v66 : Ref sig .tc := ⟨.hbm, 90, rfl⟩
abbrev main_cst_9 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  bcast_S_S1024x64 : S_.BroadcastsInDim S1024x64 (![] : Fin 0 → Fin S1024x64.rank)
  bcast_S_S64x64x20 : S_.BroadcastsInDim S64x64x20 (![] : Fin 0 → Fin S64x64x20.rank)
  bcast_S_S64x64 : S_.BroadcastsInDim S64x64 (![] : Fin 0 → Fin S64x64.rank)
  bcast_S1024x64_S1024x1x64x1_0_2 : S1024x64.BroadcastsInDim S1024x1x64x1 (![0, 2] : Fin 2 → Fin S1024x1x64x1.rank)
  bcast_S64x64x20_S1x64x64x20_1_2_3 : S64x64x20.BroadcastsInDim S1x64x64x20 (![1, 2, 3] : Fin 3 → Fin S1x64x64x20.rank)
  bcast_S64x64_S1x64x64x1_1_2 : S64x64.BroadcastsInDim S1x64x64x1 (![1, 2] : Fin 2 → Fin S1x64x64x1.rank)
  bcast_S1024x1x64x1_S1024x64x64x20_0_1_2_3 : S1024x1x64x1.BroadcastsInDim S1024x64x64x20 (![0, 1, 2, 3] : Fin 4 → Fin S1024x64x64x20.rank)
  bcast_S1x64x64x20_S1024x64x64x20_0_1_2_3 : S1x64x64x20.BroadcastsInDim S1024x64x64x20 (![0, 1, 2, 3] : Fin 4 → Fin S1024x64x64x20.rank)
  bcast_S1x64x64x1_S1024x64x64x1_0_1_2_3 : S1x64x64x1.BroadcastsInDim S1024x64x64x1 (![0, 1, 2, 3] : Fin 4 → Fin S1024x64x64x1.rank)
  bcast_S1024x1x64x1_S1024x64x64x1_0_1_2_3 : S1024x1x64x1.BroadcastsInDim S1024x64x64x1 (![0, 1, 2, 3] : Fin 4 → Fin S1024x64x64x1.rank)
  bcast_S_S1024x64x64x1 : S_.BroadcastsInDim S1024x64x64x1 (![] : Fin 0 → Fin S1024x64x64x1.rank)
  bcast_S1024x64x64x1_S1024x64x64x20_0_1_2_3 : S1024x64x64x1.BroadcastsInDim S1024x64x64x20 (![0, 1, 2, 3] : Fin 4 → Fin S1024x64x64x20.rank)
  bcast_S_S1024x1x64x1 : S_.BroadcastsInDim S1024x1x64x1 (![] : Fin 0 → Fin S1024x1x64x1.rank)
  reducesTo_S1024x64x64x20_S1024x64x64_d3 : S1024x64x64x20.ReducesTo [3] S1024x64x64
  h_S_ : 0 < S_.numel
  bcast_S_S1024x64x64 : S_.BroadcastsInDim S1024x64x64 (![] : Fin 0 → Fin S1024x64x64.rank)
  reducesTo_S1024x64x64_S1024x64_d2 : S1024x64x64.ReducesTo [2] S1024x64

variable [Facts₀]

class Facts : Prop extends Facts₀ where

variable [Facts]
-- ==== Proof.KTrip.lean ====
/-
  The body of the kernel at one grid point, read as values.

  The body loads the two [64,64] edge parameters and the point's [128,64] block of inputs, runs twenty trips of a
  loop that carries two [128,64,64] accumulators (trip `m` loads slab `m` of each of the three [20,64,64] parameter
  arrays), and stores the sum over the last axis of the first accumulator, and of the positive part of the second, as the
  two output blocks. Here: one trip is a pure function of the carried pair and of the three slabs it loads; and each
  output block is the last-axis sum applied to the loop's final state.
-/
import proofs.«125897_j63934883168343_2_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem hz2 : (![0, 0] : Fin 2 → Nat) = fun _ => 0 := funext fun a => by fin_cases a <;> rfl

/-- Slab `k` of a [20,64,64] buffer: what trip `k` loads from it. -/
abbrev slab (arg : Memref sig .tc .vmem S20x64x64 .f32) (X : BufTy.Contents (Elt F) arg.view.ty) (k : Fin k0_t1_loop.trips) :
    Vec F S1x64x64 .f32 :=
  View.readAt (Elt F) arg.view (Rect.unit (s := S20x64x64) (k0_off1 k) S1x64x64.size (k0_off1_inb k)).toLoadRect X

/-- One trip on the carried pair: the first accumulator gains `psi1 * q_mu`, the second gains `ek2 * (q_mu^2 + q_var)`
    and then loses `psi1^2 * q_mu^2`; `ls`, `lv` are the edge parameters, `xb` the block of inputs, `sz`, `sq`, `sl` the
    trip's slabs of the inducing locations, the weight means and the weight log-variances. -/
def step (ls lv : Vec F S64x64 .f32) (xb : Vec F S128x64 .f32) (sz sq sl : Vec F S1x64x64 .f32)
    (acc : FVec F S128x64x64 .f32 × FVec F S128x64x64 .f32) : FVec F S128x64x64 .f32 × FVec F S128x64x64 .f32 :=
  (k0_pay18 (k0_pay2 lv) (k0_pay4 ls) (k0_pay6 ls) (k0_pay8 xb) acc.1 sz sq,
    k0_pay11 acc.2 (k0_pay16 (k0_pay2 lv) (k0_pay4 ls) (k0_pay6 ls) (k0_pay8 xb) sz) (k0_pay17 sq)
      (k0_pay19 (k0_pay3 lv) (k0_pay5 ls) (k0_pay7 ls) (k0_pay8 xb) sz sq sl))

/-- What one trip of the loop yields: the step at the trip's three slabs. -/
theorem trip_eq (𝒱 : Variants) (bd : Option 𝒱.V) (c : Dev nD) (i : grid0.Coords) (arg1 : Memref sig .tc .vmem S128x64 .f32) (harg1 : arg1.IsWhole) (arg2 : Memref sig .tc .vmem S20x64x64 .f32) (harg2 : arg2.IsWhole) (arg3 : Memref sig .tc .vmem S20x64x64 .f32) (harg3 : arg3.IsWhole) (arg4 : Memref sig .tc .vmem S20x64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S128x64 .f32) (harg7 : arg7.IsWhole) (arg8 : Memref sig .tc .vmem S128x64 .f32) (harg8 : arg8.IsWhole)
    (v0 : Vec F S64x64 .f32) (v5 : Vec F S64x64 .f32) (v18 : Vec F S128x64 .f32) (X_arg2 : BufTy.Contents (Elt F) arg2.view.ty) (X_arg3 : BufTy.Contents (Elt F) arg3.view.ty) (X_arg4 : BufTy.Contents (Elt F) arg4.view.ty) (k : Fin k0_t1_loop.trips) (acc : FVec F S128x64x64 .f32 × FVec F S128x64x64 .f32) :
    tripR_k0_t1 (F := F) 𝒱 c bd i arg1 harg1 arg2 harg2 arg3 harg3 arg4 harg4 arg5 harg5 arg6 harg6 arg7 harg7 arg8 harg8 v0 v5 v18 X_arg2 X_arg3 X_arg4 k acc
      = step v0 v5 v18 (slab arg2 X_arg2 k) (slab arg3 X_arg3 k) (slab arg4 X_arg4 k) acc := by
  unfold tripR_k0_t1 trip_k0_t1
  dsimp only
  sl_unfold_words
  rfl

/-- The loop makes twenty trips. -/
theorem trips_eq : Scf.trips (0#32) (Scalar.addi 0#32 20#32) 1#32 = 20 := by decide +kernel

/-- The loop's state before trip `n`, from zero accumulators, on buffers holding `x1`, `x2`, `x3`. -/
abbrev loopState (c : Dev nD) (i : grid0.Coords) (arg1 : Memref sig .tc .vmem S128x64 .f32) (harg1 : arg1.IsWhole) (arg2 : Memref sig .tc .vmem S20x64x64 .f32) (harg2 : arg2.IsWhole) (arg3 : Memref sig .tc .vmem S20x64x64 .f32) (harg3 : arg3.IsWhole) (arg4 : Memref sig .tc .vmem S20x64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S128x64 .f32) (harg7 : arg7.IsWhole) (arg8 : Memref sig .tc .vmem S128x64 .f32) (harg8 : arg8.IsWhole) (x0 : Vec F S128x64 .f32) (x1 : Vec F S20x64x64 .f32) (x2 : Vec F S20x64x64 .f32) (x3 : Vec F S20x64x64 .f32) (x4 : Vec F S64x64 .f32) (x5 : Vec F S64x64 .f32) (n : ℕ) :
    FVec F S128x64x64 .f32 × FVec F S128x64x64 .f32 :=
  st_k0_t1 (F := F) Variants.none c none i arg1 harg1 arg2 harg2 arg3 harg3 arg4 harg4 arg5 harg5 arg6 harg6 arg7 harg7 arg8 harg8
    x4 x5 x0 (harg2.unread x1) (harg3.unread x2) (harg4.unread x3) (k0_pay9, k0_pay10) n

/-- The first output block is the last-axis sum of the first accumulator after the twenty trips. -/
theorem out6_eq (c : Dev nD) (i : grid0.Coords) (arg1 : Memref sig .tc .vmem S128x64 .f32) (harg1 : arg1.IsWhole) (arg2 : Memref sig .tc .vmem S20x64x64 .f32) (harg2 : arg2.IsWhole) (arg3 : Memref sig .tc .vmem S20x64x64 .f32) (harg3 : arg3.IsWhole) (arg4 : Memref sig .tc .vmem S20x64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S128x64 .f32) (harg7 : arg7.IsWhole) (arg8 : Memref sig .tc .vmem S128x64 .f32) (harg8 : arg8.IsWhole) (x0 : Vec F S128x64 .f32) (x1 : Vec F S20x64x64 .f32) (x2 : Vec F S20x64x64 .f32) (x3 : Vec F S20x64x64 .f32) (x4 : Vec F S64x64 .f32) (x5 : Vec F S64x64 .f32) :
    out0_A_6 c i arg1 harg1 arg2 harg2 arg3 harg3 arg4 harg4 arg5 harg5 arg6 harg6 arg7 harg7 arg8 harg8 x0 x1 x2 x3 x4 x5 = k0_pay12 (loopState c i arg1 harg1 arg2 harg2 arg3 harg3 arg4 harg4 arg5 harg5 arg6 harg6 arg7 harg7 arg8 harg8 x0 x1 x2 x3 x4 x5 20).1 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  rw [View.canon_unit_zero hz2]
  simp only [View.readAt_eq_ld, harg1.read_unread, harg5.read_unread, harg6.read_unread,
    View.ld_unit_zero (S := S64x64) hz2, View.ld_unit_zero (S := S128x64) hz2, trips_eq]

/-- The second output block is the last-axis sum of the positive part of the second accumulator. -/
theorem out7_eq (c : Dev nD) (i : grid0.Coords) (arg1 : Memref sig .tc .vmem S128x64 .f32) (harg1 : arg1.IsWhole) (arg2 : Memref sig .tc .vmem S20x64x64 .f32) (harg2 : arg2.IsWhole) (arg3 : Memref sig .tc .vmem S20x64x64 .f32) (harg3 : arg3.IsWhole) (arg4 : Memref sig .tc .vmem S20x64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S128x64 .f32) (harg7 : arg7.IsWhole) (arg8 : Memref sig .tc .vmem S128x64 .f32) (harg8 : arg8.IsWhole) (x0 : Vec F S128x64 .f32) (x1 : Vec F S20x64x64 .f32) (x2 : Vec F S20x64x64 .f32) (x3 : Vec F S20x64x64 .f32) (x4 : Vec F S64x64 .f32) (x5 : Vec F S64x64 .f32) :
    out0_A_7 c i arg1 harg1 arg2 harg2 arg3 harg3 arg4 harg4 arg5 harg5 arg6 harg6 arg7 harg7 arg8 harg8 x0 x1 x2 x3 x4 x5 = k0_pay13 (loopState c i arg1 harg1 arg2 harg2 arg3 harg3 arg4 harg4 arg5 harg5 arg6 harg6 arg7 harg7 arg8 harg8 x0 x1 x2 x3 x4 x5 20).2 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5)]
  unfold kernelRun0_A
  dsimp only
  rw [View.canon_unit_zero hz2]
  simp only [View.readAt_eq_ld, harg1.read_unread, harg5.read_unread, harg6.read_unread,
    View.ld_unit_zero (S := S64x64) hz2, View.ld_unit_zero (S := S128x64) hz2, trips_eq]

/-- The state before trip 0 is the pair of zero accumulators; each trip applies the step at its slabs. -/
theorem loopState_zero (c : Dev nD) (i : grid0.Coords) (arg1 : Memref sig .tc .vmem S128x64 .f32) (harg1 : arg1.IsWhole) (arg2 : Memref sig .tc .vmem S20x64x64 .f32) (harg2 : arg2.IsWhole) (arg3 : Memref sig .tc .vmem S20x64x64 .f32) (harg3 : arg3.IsWhole) (arg4 : Memref sig .tc .vmem S20x64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S128x64 .f32) (harg7 : arg7.IsWhole) (arg8 : Memref sig .tc .vmem S128x64 .f32) (harg8 : arg8.IsWhole) (x0 : Vec F S128x64 .f32) (x1 : Vec F S20x64x64 .f32) (x2 : Vec F S20x64x64 .f32) (x3 : Vec F S20x64x64 .f32) (x4 : Vec F S64x64 .f32) (x5 : Vec F S64x64 .f32) :
    loopState c i arg1 harg1 arg2 harg2 arg3 harg3 arg4 harg4 arg5 harg5 arg6 harg6 arg7 harg7 arg8 harg8 x0 x1 x2 x3 x4 x5 0 = (k0_pay9, k0_pay10) := rfl

theorem loopState_succ (c : Dev nD) (i : grid0.Coords) (arg1 : Memref sig .tc .vmem S128x64 .f32) (harg1 : arg1.IsWhole) (arg2 : Memref sig .tc .vmem S20x64x64 .f32) (harg2 : arg2.IsWhole) (arg3 : Memref sig .tc .vmem S20x64x64 .f32) (harg3 : arg3.IsWhole) (arg4 : Memref sig .tc .vmem S20x64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S128x64 .f32) (harg7 : arg7.IsWhole) (arg8 : Memref sig .tc .vmem S128x64 .f32) (harg8 : arg8.IsWhole) (x0 : Vec F S128x64 .f32) (x1 : Vec F S20x64x64 .f32) (x2 : Vec F S20x64x64 .f32) (x3 : Vec F S20x64x64 .f32) (x4 : Vec F S64x64 .f32) (x5 : Vec F S64x64 .f32) (k : Fin k0_t1_loop.trips) :
    loopState c i arg1 harg1 arg2 harg2 arg3 harg3 arg4 harg4 arg5 harg5 arg6 harg6 arg7 harg7 arg8 harg8 x0 x1 x2 x3 x4 x5 (k.val + 1)
      = step x4 x5 x0 (slab arg2 (harg2.unread x1) k) (slab arg3 (harg3.unread x2) k) (slab arg4 (harg4.unread x3) k)
          (loopState c i arg1 harg1 arg2 harg2 arg3 harg3 arg4 harg4 arg5 harg5 arg6 harg6 arg7 harg7 arg8 harg8 x0 x1 x2 x3 x4 x5 k.val) := by
  unfold loopState
  rw [st_k0_t1_succ, trip_eq]

end Cert.KernelIdeal.Body

end
-- ==== Proof.Spec.lean ====
/-
  The two results as functions of the argument arrays, entry by entry, on the extended reals.

  For a batch row `b` and an output unit `o` the layer sums, over the input units `i` and the inducing points `m`,
  the moments of a Gaussian-process edge with an RBF kernel evaluated at an input of variance `v = 1e-6`:
  with `l2` the squared length scale (the scale is `exp log_scale`, kept above 0.1), `s` the signal variance
  (`exp log_variance`, kept above 1e-5) and `d = (x[b,i] - z[o,i,m])^2`,

    psi1 = s * sqrt (l2 / (l2 + v)) * exp (-d / (2 (l2 + v)))        the expected kernel value
    ek2  = s^2 * sqrt (l2 / (l2 + 2v)) * exp (-d / (l2 + 2v))        the expected squared kernel value

  and the mean is the sum over `i`, `m` of `psi1 * q_mu`, the variance the sum over `i` of the positive part of the sum
  over `m` of `ek2 * (q_mu^2 + q_var) - psi1^2 * q_mu^2` (`q_var = exp q_log_var`, kept above 1e-5).
  Every float constant is kept as the extended real its bit pattern denotes.
-/
import Idealize.ShloMosaic.PureOps.Ideal
import Idealize.ShloMosaic.Lib.ValueIdx

noncomputable section

open scoped BigOperators

namespace Cert.Spec

open Idealize.ShloMosaic Idealize.ShloMosaic.ValueIdx

/-! ## One edge, one inducing point: scalars -/

/-- The squared length scale of an edge whose logarithmic scale is `ls`: the scale `exp ls`, not below the float 0.1. -/
def ell2 (ls : EReal) : EReal :=
  max (Ideal.ofBits .f32 0x3DCCCCCD#32) (Ideal.exp ls) * max (Ideal.ofBits .f32 0x3DCCCCCD#32) (Ideal.exp ls)

/-- The signal variance of an edge whose logarithmic variance is `lv`: `exp lv`, not below the float 1e-5. -/
def sig2 (lv : EReal) : EReal := max (Ideal.ofBits .f32 0x3727C5AC#32) (Ideal.exp lv)

/-- `l2 + v` with the input variance `v` the float 1e-6. -/
def den1 (ls : EReal) : EReal := ell2 ls + Ideal.ofBits .f32 0x358637BD#32

/-- `l2 + 2 v`: twice the float 1e-6, as a product. -/
def den2 (ls : EReal) : EReal := ell2 ls + Ideal.ofBits .f32 0x40000000#32 * Ideal.ofBits .f32 0x358637BD#32

/-- The squared distance of an input to an inducing point. -/
def dist2 (x z : EReal) : EReal := (x - z) * (x - z)

/-- The expected kernel value `s * sqrt (l2 / (l2 + v)) * exp (-d / (2 (l2 + v)))`. -/
def psi1 (x z ls lv : EReal) : EReal :=
  (sig2 lv * Ideal.sqrt (Ideal.div (ell2 ls) (den1 ls)))
    * Ideal.exp (Ideal.div (-(dist2 x z)) (Ideal.ofBits .f32 0x40000000#32 * den1 ls))

/-- The expected squared kernel value `s^2 * sqrt (l2 / (l2 + 2v)) * exp (-d / (l2 + 2v))`. -/
def ek2 (x z ls lv : EReal) : EReal :=
  ((sig2 lv * sig2 lv) * Ideal.sqrt (Ideal.div (ell2 ls) (den2 ls))) * Ideal.exp (Ideal.div (-(dist2 x z)) (den2 ls))

/-- The variance of an inducing weight whose logarithmic variance is `ql`: `exp ql`, not below the float 1e-5. -/
def qvar (ql : EReal) : EReal := max (Ideal.ofBits .f32 0x3727C5AC#32) (Ideal.exp ql)

/-- One inducing point's share of an edge's mean. -/
def meanTerm (x z qm ls lv : EReal) : EReal := psi1 x z ls lv * qm

/-- One inducing point's share of an edge's second moment. -/
def gainTerm (x z qm ql ls lv : EReal) : EReal := ek2 x z ls lv * (qm * qm + qvar ql)

/-- One inducing point's share of an edge's squared mean. -/
def lossTerm (x z qm ls lv : EReal) : EReal := (psi1 x z ls lv * psi1 x z ls lv) * (qm * qm)

/-- One inducing point's share of an edge's variance. -/
def varTerm (x z qm ql ls lv : EReal) : EReal := gainTerm x z qm ql ls lv - lossTerm x z qm ls lv

/-! ## One batch row, one output unit -/

/-- The mean of one output unit for one batch row: `xr` the row of inputs, the parameters those of the unit's 64 edges. -/
def meanAt (xr : Fin 64 → EReal) (zf qf : Fin 64 → Fin 20 → EReal) (lsf lvf : Fin 64 → EReal) : EReal :=
  ∑ i : Fin 64, ∑ m : Fin 20, meanTerm (xr i) (zf i m) (qf i m) (lsf i) (lvf i)

/-- The variance of one output unit for one batch row: each edge's variance is cut off below at zero. -/
def varAt (xr : Fin 64 → EReal) (zf qf lf : Fin 64 → Fin 20 → EReal) (lsf lvf : Fin 64 → EReal) : EReal :=
  ∑ i : Fin 64, max 0 (∑ m : Fin 20, varTerm (xr i) (zf i m) (qf i m) (lf i m) (lsf i) (lvf i))

/-! ## The result arrays -/

abbrev SX : Shape := ⟨2, ![1024, 64]⟩
abbrev SP : Shape := ⟨3, ![64, 64, 20]⟩
abbrev SE : Shape := ⟨2, ![64, 64]⟩

/-- The mean array `[1024, 64]`: entry `(b, o)` from row `b` of `x` and the parameters of output unit `o`. -/
def yMean (x : SX.Idx → EReal) (z qm : SP.Idx → EReal) (ls lv : SE.Idx → EReal) : SX.Idx → EReal := fun j =>
  meanAt (fun i => x (ix2 (j 0) i)) (fun i m => z (ix3 (j 1) i m)) (fun i m => qm (ix3 (j 1) i m))
    (fun i => ls (ix2 (j 1) i)) (fun i => lv (ix2 (j 1) i))

/-- The variance array `[1024, 64]`. -/
def yVar (x : SX.Idx → EReal) (z qm ql : SP.Idx → EReal) (ls lv : SE.Idx → EReal) : SX.Idx → EReal := fun j =>
  varAt (fun i => x (ix2 (j 0) i)) (fun i m => z (ix3 (j 1) i m)) (fun i m => qm (ix3 (j 1) i m))
    (fun i m => ql (ix3 (j 1) i m)) (fun i => ls (ix2 (j 1) i)) (fun i => lv (ix2 (j 1) i))

/-! ## Sums taken one term at a time -/

/-- The sum of the first `n` terms of a finite family. -/
def psum {M : Type*} [AddCommMonoid M] {N : ℕ} (f : Fin N → M) (n : ℕ) : M :=
  ∑ m ∈ Finset.univ.filter (fun m : Fin N => m.val < n), f m

theorem psum_zero {M : Type*} [AddCommMonoid M] {N : ℕ} (f : Fin N → M) : psum f 0 = 0 := by
  unfold psum
  rw [Finset.filter_false_of_mem (fun m _ => Nat.not_lt_zero _), Finset.sum_empty]

theorem psum_succ {M : Type*} [AddCommMonoid M] {N : ℕ} (f : Fin N → M) (n : ℕ) (h : n < N) :
    psum f (n + 1) = psum f n + f ⟨n, h⟩ := by
  unfold psum
  have hset : Finset.univ.filter (fun m : Fin N => m.val < n + 1)
      = insert (⟨n, h⟩ : Fin N) (Finset.univ.filter (fun m : Fin N => m.val < n)) := by
    ext m
    simp only [Finset.mem_filter, Finset.mem_univ, true_and, Finset.mem_insert]
    constructor
    · intro hm
      rcases Nat.lt_succ_iff_lt_or_eq.mp hm with hlt | heq
      · exact Or.inr hlt
      · exact Or.inl (Fin.ext heq)
    · rintro (rfl | hlt)
      · exact Nat.lt_succ_self _
      · exact Nat.lt_succ_of_lt hlt
  have hnot : (⟨n, h⟩ : Fin N) ∉ Finset.univ.filter (fun m : Fin N => m.val < n) := by
    simp only [Finset.mem_filter, Finset.mem_univ, true_and]
    exact Nat.lt_irrefl n
  rw [hset, Finset.sum_insert hnot, add_comm]

theorem psum_all {M : Type*} [AddCommMonoid M] {N : ℕ} (f : Fin N → M) : psum f N = ∑ m, f m := by
  unfold psum
  rw [Finset.filter_true_of_mem (fun m _ => m.isLt)]

/-- Adding a gain and then taking away a loss is adding their difference: subtraction on the extended reals is the
    sum with the opposite, and sums reassociate. -/
theorem add_sub_eq (a g l : EReal) : a + g - l = a + (g - l) := by
  rw [sub_eq_add_neg, sub_eq_add_neg, add_assoc]

/-- Taking a value away from zero gives its opposite. -/
theorem zero_sub_eq (a : EReal) : (0 : EReal) - a = -a := by
  rw [sub_eq_add_neg, zero_add]

end Cert.Spec

end
-- ==== Proof.Lits.lean ====
/-
  The float constants whose values matter: the zero word is zero, and the float nearest `2e-6` is exactly twice the
  float nearest `1e-6` (doubling a binary float only raises its exponent), so adding it is adding `2 * 1e-6` read as a product.
-/
import Idealize.ShloMosaic.PureOps.Ideal

noncomputable section

namespace Cert.Lits

open Idealize.ShloMosaic

/-- The zero pattern denotes `0`. -/
theorem ofBits_zero : Ideal.ofBits .f32 0x00000000#32 = 0 := by
  simp [Ideal.ofBits, Ideal.ieee]

/-- The pattern of `2e-6` denotes the product of the patterns of `2` and `1e-6`: same significand, exponent one higher. -/
theorem ofBits_twice : Ideal.ofBits .f32 0x360637BD#32 = Ideal.ofBits .f32 0x40000000#32 * Ideal.ofBits .f32 0x358637BD#32 := by
  have h1 : Ideal.ofBits .f32 0x360637BD#32 = ((8796093 / 4398046511104 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have h3 : Ideal.ofBits .f32 0x358637BD#32 = ((8796093 / 8796093022208 : ℝ) : EReal) := by
    simp [Ideal.ofBits, Ideal.ieee, -EReal.coe_mul]; norm_num
  rw [h1, h2, h3, ← EReal.coe_mul]
  congr 1
  norm_num

end Cert.Lits

end
-- ==== Proof.LibRank3.lean ====
/-
  Rank-3 layout operations read at an index, over any extents.

  A body that adds a row-indexed matrix, a column-indexed matrix and a vector along a common last axis forms the
  three-axis array `(p, q, k) ↦ A[p,k] + B[q,k] + v[k]` by reshaping each operand with unit axes and broadcasting it:
  `[a,b] → [a,1,b]`, `[a,b] → [1,a,b]` (in the library), `[c] → [1,1,c]`, then `[a,1,c]`, `[1,b,c]`, `[1,1,c]` `→ [a,b,c]`;
  a sum over the last axis brings it back to `[a,b]`. Each lemma reads one of these operations at an index given by
  its coordinates: a reshape keeps the row-major position, a broadcast reads coordinate `0` on a unit axis.
  Also the column form `[a,1] → [a]`.
-/
import Idealize.ShloMosaic.Lib.Pipeline.Value
import Idealize.ShloMosaic.Lib.ValueIdx
import Idealize.ShloMosaic.PureOps.Ideal.Laws

noncomputable section

open scoped BigOperators

namespace Cert.LibRank3

open Idealize.ShloMosaic Idealize.ShloMosaic.ValueIdx

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[c]` array cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    have huv : u.val * 1 + v.val = 0 := by omega
    rw [huv, Nat.zero_mul, Nat.zero_add])

/-- An `[a, 1]` column cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(p, q, k)`, the operand at `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- A `[1, 1, c]` array broadcast to `[a, b, c]` reads, at `(p, q, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- On the extended reals a sum over the LAST axis of an `[a, b, c]` array is, at `(p, q)`, the sum over `k` of the
    array at `(p, q, k)`. -/
theorem multiReduction_add_last_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  show ∑ k : Fin c, src (h.lift (ix2 p q) k) = _
  refine Finset.sum_congr rfl fun k _ => congrArg src (funext fun ax => Fin.ext ?_)
  match ax with
  | ⟨0, _⟩ => rfl
  | ⟨1, _⟩ => rfl
  | ⟨2, _⟩ => rfl

end Cert.LibRank3

end
-- ==== Proof.KPay.lean ====
/-
  The body's arithmetic at one entry, on the extended reals.

  Every value the body computes is an array over (row `p` of the block, output unit `o`, input unit `i`) or over
  (`o`, `i`) alone, formed from the loaded blocks by entrywise operations, by unit axes added or dropped, and by
  broadcasts along the row axis or the output-unit axis. Read at an entry, each is the scalar formula of the
  specification at the corresponding entries of the loaded blocks: one trip adds `meanTerm` to the first accumulator
  and `varTerm` to the second (the gain added and the loss then taken away is their difference added).
-/
import proofs.«125897_j63934883168343_2_alg».proof.Proof.KTrip
import proofs.«125897_j63934883168343_2_alg».proof.Proof.Spec
import proofs.«125897_j63934883168343_2_alg».proof.Proof.Lits
import proofs.«125897_j63934883168343_2_alg».proof.Proof.LibRank3
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem

namespace Cert.KernelIdeal.Body

open Cert.KernelIdeal Cert.KernelIdeal.Gen Idealize.ShloMosaic.ValueIdx

/-! ## Layout operations of the body, at an entry -/

theorem exp_at {s : Shape} (a : FVec Ideal s .f32) (j : s.Idx) : exp a j = Ideal.exp (a j) := rfl
theorem sqrt_at {s : Shape} (a : FVec Ideal s .f32) (j : s.Idx) : sqrt a j = Ideal.sqrt (a j) := rfl

/-- A [1,64,64] array broadcast along the row axis reads its one row. -/
theorem rows_at (v : FVec Ideal S1x64x64 .f32) (h : S1x64x64.Broadcasts S128x64x64) (p : Fin 128) (o i : Fin 64) :
    broadcastTo S128x64x64 v h (ix3 p o i) = v (ix3 (0 : Fin 1) o i) :=
  Cert.LibRank3.broadcastTo_1bc_abc_apply v h p o i

/-- A [64,64] array given a leading unit axis. -/
theorem lead_at (w : FVec Ideal S64x64 .f32) (h : S64x64.ShapeCasts S1x64x64) (u : Fin 1) (o i : Fin 64) :
    shapeCast S1x64x64 w h (ix3 u o i) = w (ix2 o i) :=
  shapeCast_ab_1ab_apply w h u o i

/-- A [1,64,64] slab with its unit axis dropped. -/
theorem drop_at (v : FVec Ideal S1x64x64 .f32) (h : S1x64x64.ShapeCasts S64x64) (o i : Fin 64) :
    shapeCast S64x64 v h (ix2 o i) = v (ix3 (0 : Fin 1) o i) :=
  shapeCast_1ab_ab_apply v h o i

/-- The block of inputs spread over the output units: entry `(p, o, i)` is input `i` of row `p`. -/
theorem pay8_at (xb : Vec Ideal S128x64 .f32) (p : Fin 128) (o i : Fin 64) :
    k0_pay8 xb (ix3 p o i) = xb (ix2 p i) := by
  unfold k0_pay8
  (try dsimp only)
  rw [shapeCast_self]
  refine (Cert.LibRank3.broadcastTo_a1c_abc_apply _ _ p o i).trans ?_
  exact Cert.LibRank3.shapeCast_ab_a1b_apply _ _ p (0 : Fin 1) i

/-! ## The edge parameters -/

theorem pay1_at (ls : Vec Ideal S64x64 .f32) (o i : Fin 64) : k0_pay1 ls (ix2 o i) = Cert.Spec.ell2 (ls (ix2 o i)) := rfl

theorem pay2_at (lv : Vec Ideal S64x64 .f32) (o i : Fin 64) : k0_pay2 lv (ix2 o i) = Cert.Spec.sig2 (lv (ix2 o i)) := rfl

theorem pay3_at (lv : Vec Ideal S64x64 .f32) (o i : Fin 64) :
    k0_pay3 lv (ix2 o i) = Cert.Spec.sig2 (lv (ix2 o i)) * Cert.Spec.sig2 (lv (ix2 o i)) := rfl

theorem pay4_at (ls : Vec Ideal S64x64 .f32) (o i : Fin 64) : k0_pay4 ls (ix2 o i) = Cert.Spec.den1 (ls (ix2 o i)) := rfl

/-- The body adds the float `2e-6`, which is the product `2 * 1e-6` of the specification. -/
theorem pay5_at (ls : Vec Ideal S64x64 .f32) (o i : Fin 64) : k0_pay5 ls (ix2 o i) = Cert.Spec.den2 (ls (ix2 o i)) := by
  show Cert.Spec.ell2 (ls (ix2 o i)) + Ideal.ofBits .f32 0x360637BD#32 = _
  rw [Cert.Lits.ofBits_twice]
  rfl

theorem pay6_at (ls : Vec Ideal S64x64 .f32) (o i : Fin 64) :
    k0_pay6 ls (ix2 o i) = Ideal.sqrt (Ideal.div (Cert.Spec.ell2 (ls (ix2 o i))) (Cert.Spec.den1 (ls (ix2 o i)))) := rfl

theorem pay7_at (ls : Vec Ideal S64x64 .f32) (o i : Fin 64) :
    k0_pay7 ls (ix2 o i) = Ideal.sqrt (Ideal.div (Cert.Spec.ell2 (ls (ix2 o i))) (Cert.Spec.den2 (ls (ix2 o i)))) := by
  show Ideal.sqrt (Ideal.div (k0_pay1 ls (ix2 o i)) (k0_pay5 ls (ix2 o i))) = _
  rw [pay5_at, pay1_at]

/-! ## One trip -/

/-- The squared distance of input `(p, i)` to the trip's inducing location of edge `(o, i)`. -/
theorem pay15_at (v21 : FVec Ideal S128x64x64 .f32) (sz : Vec Ideal S1x64x64 .f32) (p : Fin 128) (o i : Fin 64) :
    k0_pay15 v21 sz (ix3 p o i) = Cert.Spec.dist2 (v21 (ix3 p o i)) (sz (ix3 (0 : Fin 1) o i)) := by
  unfold k0_pay15 Cert.Spec.dist2
  (try dsimp only)
  simp only [mulf_apply, subf_apply, rows_at, lead_at, drop_at]

/-- The weight mean squared. -/
theorem pay17_at (sq : Vec Ideal S1x64x64 .f32) (o i : Fin 64) :
    k0_pay17 sq (ix2 o i) = sq (ix3 (0 : Fin 1) o i) * sq (ix3 (0 : Fin 1) o i) := by
  unfold k0_pay17 k0_pay14
  (try dsimp only)
  simp only [mulf_apply, drop_at]

/-- The expected kernel value of the trip: `(s * root) * exp ((0 - d) / (2 * den))`, and `0 - d` is `-d`. -/
theorem pay16_at (v8 v11 v15 : FVec Ideal S64x64 .f32) (v21 : FVec Ideal S128x64x64 .f32) (sz : Vec Ideal S1x64x64 .f32)
    (p : Fin 128) (o i : Fin 64) :
    k0_pay16 v8 v11 v15 v21 sz (ix3 p o i)
      = (v8 (ix2 o i) * v15 (ix2 o i))
          * Ideal.exp (Ideal.div (-(Cert.Spec.dist2 (v21 (ix3 p o i)) (sz (ix3 (0 : Fin 1) o i))))
              (Ideal.ofBits .f32 0x40000000#32 * v11 (ix2 o i))) := by
  unfold k0_pay16
  (try dsimp only)
  simp only [mulf_apply, subf_apply, divf_apply, exp_at, broadcast_apply, rows_at, lead_at, pay15_at]
  rw [show (Scalar.ofBits (F := Ideal) .f32 0x00000000#32 : EReal) = Ideal.ofBits .f32 0x00000000#32 from rfl,
    Cert.Lits.ofBits_zero, Cert.Spec.zero_sub_eq]
  rfl

/-- The first accumulator after the trip. -/
theorem pay18_at (v8 v11 v15 : FVec Ideal S64x64 .f32) (v21 a : FVec Ideal S128x64x64 .f32) (sz sq : Vec Ideal S1x64x64 .f32)
    (p : Fin 128) (o i : Fin 64) :
    k0_pay18 v8 v11 v15 v21 a sz sq (ix3 p o i)
      = a (ix3 p o i) + k0_pay16 v8 v11 v15 v21 sz (ix3 p o i) * sq (ix3 (0 : Fin 1) o i) := by
  unfold k0_pay18 k0_pay14
  (try dsimp only)
  simp only [addf_apply, mulf_apply, rows_at, lead_at, drop_at]

/-- The trip's share of the second moment. -/
theorem pay19_at (v9 v13 v17 : FVec Ideal S64x64 .f32) (v21 : FVec Ideal S128x64x64 .f32) (sz sq sl : Vec Ideal S1x64x64 .f32)
    (p : Fin 128) (o i : Fin 64) :
    k0_pay19 v9 v13 v17 v21 sz sq sl (ix3 p o i)
      = ((v9 (ix2 o i) * v17 (ix2 o i))
          * Ideal.exp (Ideal.div (-(Cert.Spec.dist2 (v21 (ix3 p o i)) (sz (ix3 (0 : Fin 1) o i)))) (v13 (ix2 o i))))
        * (sq (ix3 (0 : Fin 1) o i) * sq (ix3 (0 : Fin 1) o i) + Cert.Spec.qvar (sl (ix3 (0 : Fin 1) o i))) := by
  unfold k0_pay19
  (try dsimp only)
  simp only [mulf_apply, addf_apply, subf_apply, divf_apply, maximumf_apply, exp_at, broadcast_apply, rows_at, lead_at,
    drop_at, pay15_at, pay17_at]
  rw [show (Scalar.ofBits (F := Ideal) .f32 0x00000000#32 : EReal) = Ideal.ofBits .f32 0x00000000#32 from rfl,
    Cert.Lits.ofBits_zero, Cert.Spec.zero_sub_eq]
  rfl

/-- The second accumulator after the trip: the gain added, the loss taken away. -/
theorem pay11_at (a v60 v80 : FVec Ideal S128x64x64 .f32) (v72 : FVec Ideal S64x64 .f32) (p : Fin 128) (o i : Fin 64) :
    k0_pay11 a v60 v72 v80 (ix3 p o i)
      = a (ix3 p o i) + v80 (ix3 p o i) - (v60 (ix3 p o i) * v60 (ix3 p o i)) * v72 (ix2 o i) := by
  unfold k0_pay11
  (try dsimp only)
  simp only [addf_apply, mulf_apply, subf_apply, rows_at, lead_at]

/-- ONE TRIP AT AN ENTRY: the first accumulator gains the trip's share of the mean, the second its share of the variance. -/
theorem step_fst_at (ls lv : Vec Ideal S64x64 .f32) (xb : Vec Ideal S128x64 .f32) (sz sq sl : Vec Ideal S1x64x64 .f32)
    (acc : FVec Ideal S128x64x64 .f32 × FVec Ideal S128x64x64 .f32) (p : Fin 128) (o i : Fin 64) :
    (step ls lv xb sz sq sl acc).1 (ix3 p o i)
      = acc.1 (ix3 p o i)
        + Cert.Spec.meanTerm (xb (ix2 p i)) (sz (ix3 (0 : Fin 1) o i)) (sq (ix3 (0 : Fin 1) o i)) (ls (ix2 o i)) (lv (ix2 o i)) := by
  show k0_pay18 (k0_pay2 lv) (k0_pay4 ls) (k0_pay6 ls) (k0_pay8 xb) acc.1 sz sq (ix3 p o i) = _
  rw [pay18_at, pay16_at, pay8_at, pay2_at, pay4_at, pay6_at]
  rfl

theorem step_snd_at (ls lv : Vec Ideal S64x64 .f32) (xb : Vec Ideal S128x64 .f32) (sz sq sl : Vec Ideal S1x64x64 .f32)
    (acc : FVec Ideal S128x64x64 .f32 × FVec Ideal S128x64x64 .f32) (p : Fin 128) (o i : Fin 64) :
    (step ls lv xb sz sq sl acc).2 (ix3 p o i)
      = acc.2 (ix3 p o i)
        + Cert.Spec.varTerm (xb (ix2 p i)) (sz (ix3 (0 : Fin 1) o i)) (sq (ix3 (0 : Fin 1) o i)) (sl (ix3 (0 : Fin 1) o i))
            (ls (ix2 o i)) (lv (ix2 o i)) := by
  show k0_pay11 acc.2 (k0_pay16 (k0_pay2 lv) (k0_pay4 ls) (k0_pay6 ls) (k0_pay8 xb) sz) (k0_pay17 sq)
      (k0_pay19 (k0_pay3 lv) (k0_pay5 ls) (k0_pay7 ls) (k0_pay8 xb) sz sq sl) (ix3 p o i) = _
  rw [pay11_at, pay19_at, pay16_at, pay17_at, pay8_at, pay2_at, pay3_at, pay4_at, pay5_at, pay6_at, pay7_at,
    Cert.Spec.add_sub_eq]
  rfl

end Cert.KernelIdeal.Body

end
-- ==== Proof.KLoop.lean ====
/-
  The twenty trips, and the two output blocks at an entry.

  Trip `m` loads slab `m` of each [20,64,64] buffer, so (KPay) it adds to the accumulators at entry `(p, o, i)` the
  terms of inducing point `m`; by induction the state before trip `n` holds the sums of the first `n` terms, from zero.
  After the last trip the first output block is the sum over `i` of the full sums, the second the sum over `i` of their
  positive parts: the specification's `meanAt` and `varAt` of the loaded blocks.
-/
import proofs.«125897_j63934883168343_2_alg».proof.Proof.KPay

noncomputable section

open scoped BigOperators
open Idealize.ShloMosaic Idealize.ShloMosaic.TcCoe Idealize.SL.Sem

namespace Cert.KernelIdeal.Body

open Cert.KernelIdeal Cert.KernelIdeal.Gen Idealize.ShloMosaic.ValueIdx

theorem loop_trips : k0_t1_loop.trips = 20 := by decide +kernel

/-- Slab `k` of a buffer holding `x`, at `(o, i)`, is `x` at `(k, o, i)`. -/
theorem slab_at (arg : Memref sig .tc .vmem S20x64x64 .f32) (harg : arg.IsWhole) (x : Vec Ideal S20x64x64 .f32)
    (k : Fin k0_t1_loop.trips) (hk : k.val < 20) (u : Fin 1) (o i : Fin 64) :
    slab (F := Ideal) arg (harg.unread x) k (ix3 u o i) = x (ix3 (⟨k.val, hk⟩ : Fin 20) o i) := by
  unfold slab
  rw [View.readAt_eq_ld, harg.read_unread]
  refine congrArg x (funext fun a => Fin.ext ?_)
  have hoff := k0_off1_eq k
  have hu : u.val = 0 := by omega
  match a with
  | ⟨0, _⟩ =>
    show k0_off1 k 0 + 1 * u.val = k.val
    rw [hoff, hu]
    show k.val + 1 * 0 = k.val
    omega
  | ⟨1, _⟩ =>
    show k0_off1 k 1 + 1 * o.val = o.val
    rw [hoff]
    show 0 + 1 * o.val = o.val
    omega
  | ⟨2, _⟩ =>
    show k0_off1 k 2 + 1 * i.val = i.val
    rw [hoff]
    show 0 + 1 * i.val = i.val
    omega

/-- The zero accumulators. -/
theorem pay9_at (j : S128x64x64.Idx) : k0_pay9 (F := Ideal) j = 0 := Cert.Lits.ofBits_zero
theorem pay10_at (j : S128x64x64.Idx) : k0_pay10 (F := Ideal) j = 0 := Cert.Lits.ofBits_zero

/-- THE STATE BEFORE TRIP `n`, at an entry: the first `n` terms of each sum. -/
theorem loop_at (c : Dev nD) (i : grid0.Coords) (arg1 : Memref sig .tc .vmem S128x64 .f32) (harg1 : arg1.IsWhole) (arg2 : Memref sig .tc .vmem S20x64x64 .f32) (harg2 : arg2.IsWhole) (arg3 : Memref sig .tc .vmem S20x64x64 .f32) (harg3 : arg3.IsWhole) (arg4 : Memref sig .tc .vmem S20x64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S128x64 .f32) (harg7 : arg7.IsWhole) (arg8 : Memref sig .tc .vmem S128x64 .f32) (harg8 : arg8.IsWhole) (x0 : Vec Ideal S128x64 .f32) (x1 : Vec Ideal S20x64x64 .f32) (x2 : Vec Ideal S20x64x64 .f32) (x3 : Vec Ideal S20x64x64 .f32) (x4 : Vec Ideal S64x64 .f32) (x5 : Vec Ideal S64x64 .f32) (p : Fin 128) (o e : Fin 64) :
    ∀ n : ℕ, n ≤ 20 →
      (loopState (F := Ideal) c i arg1 harg1 arg2 harg2 arg3 harg3 arg4 harg4 arg5 harg5 arg6 harg6 arg7 harg7 arg8 harg8 x0 x1 x2 x3 x4 x5 n).1 (ix3 p o e)
          = Cert.Spec.psum (fun m : Fin 20 => Cert.Spec.meanTerm (x0 (ix2 p e)) (x1 (ix3 m o e)) (x2 (ix3 m o e)) (x4 (ix2 o e)) (x5 (ix2 o e))) n
      ∧ (loopState (F := Ideal) c i arg1 harg1 arg2 harg2 arg3 harg3 arg4 harg4 arg5 harg5 arg6 harg6 arg7 harg7 arg8 harg8 x0 x1 x2 x3 x4 x5 n).2 (ix3 p o e)
          = Cert.Spec.psum (fun m : Fin 20 => Cert.Spec.varTerm (x0 (ix2 p e)) (x1 (ix3 m o e)) (x2 (ix3 m o e)) (x3 (ix3 m o e)) (x4 (ix2 o e)) (x5 (ix2 o e))) n
  | 0, _ => by
    rw [loopState_zero, Cert.Spec.psum_zero, Cert.Spec.psum_zero]
    show k0_pay9 (F := Ideal) (ix3 p o e) = 0 ∧ k0_pay10 (F := Ideal) (ix3 p o e) = 0
    exact ⟨pay9_at _, pay10_at _⟩
  | n + 1, hn => by
    have hn' : n < 20 := hn
    have ih := loop_at c i arg1 harg1 arg2 harg2 arg3 harg3 arg4 harg4 arg5 harg5 arg6 harg6 arg7 harg7 arg8 harg8 x0 x1 x2 x3 x4 x5 p o e n (Nat.le_of_lt hn')
    have hk : n < k0_t1_loop.trips := by rw [loop_trips]; exact hn'
    have hs := loopState_succ (F := Ideal) c i arg1 harg1 arg2 harg2 arg3 harg3 arg4 harg4 arg5 harg5 arg6 harg6 arg7 harg7 arg8 harg8 x0 x1 x2 x3 x4 x5 ⟨n, hk⟩
    have hs' : loopState (F := Ideal) c i arg1 harg1 arg2 harg2 arg3 harg3 arg4 harg4 arg5 harg5 arg6 harg6 arg7 harg7 arg8 harg8 x0 x1 x2 x3 x4 x5 (n + 1)
        = step x4 x5 x0 (slab arg2 (harg2.unread x1) ⟨n, hk⟩) (slab arg3 (harg3.unread x2) ⟨n, hk⟩) (slab arg4 (harg4.unread x3) ⟨n, hk⟩)
            (loopState (F := Ideal) c i arg1 harg1 arg2 harg2 arg3 harg3 arg4 harg4 arg5 harg5 arg6 harg6 arg7 harg7 arg8 harg8 x0 x1 x2 x3 x4 x5 n) := hs
    rw [hs', step_fst_at, step_snd_at, ih.1, ih.2, Cert.Spec.psum_succ _ n hn', Cert.Spec.psum_succ _ n hn',
      slab_at arg2 harg2 x1 ⟨n, hk⟩ hn', slab_at arg3 harg3 x2 ⟨n, hk⟩ hn', slab_at arg4 harg4 x3 ⟨n, hk⟩ hn']
    exact ⟨rfl, rfl⟩

/-- THE FIRST OUTPUT BLOCK at `(p, o)`: the mean of output unit `o` for row `p` of the block of inputs, the parameters read
    from the buffers with the inducing axis first. -/
theorem out6_at (c : Dev nD) (i : grid0.Coords) (arg1 : Memref sig .tc .vmem S128x64 .f32) (harg1 : arg1.IsWhole) (arg2 : Memref sig .tc .vmem S20x64x64 .f32) (harg2 : arg2.IsWhole) (arg3 : Memref sig .tc .vmem S20x64x64 .f32) (harg3 : arg3.IsWhole) (arg4 : Memref sig .tc .vmem S20x64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S128x64 .f32) (harg7 : arg7.IsWhole) (arg8 : Memref sig .tc .vmem S128x64 .f32) (harg8 : arg8.IsWhole) (x0 : Vec Ideal S128x64 .f32) (x1 : Vec Ideal S20x64x64 .f32) (x2 : Vec Ideal S20x64x64 .f32) (x3 : Vec Ideal S20x64x64 .f32) (x4 : Vec Ideal S64x64 .f32) (x5 : Vec Ideal S64x64 .f32) (p : Fin 128) (o : Fin 64) :
    out0_A_6 (F := Ideal) c i arg1 harg1 arg2 harg2 arg3 harg3 arg4 harg4 arg5 harg5 arg6 harg6 arg7 harg7 arg8 harg8 x0 x1 x2 x3 x4 x5 (ix2 p o)
      = Cert.Spec.meanAt (fun e => x0 (ix2 p e)) (fun e m => x1 (ix3 m o e)) (fun e m => x2 (ix3 m o e))
          (fun e => x4 (ix2 o e)) (fun e => x5 (ix2 o e)) := by
  rw [out6_eq]
  unfold k0_pay12 Cert.Spec.meanAt
  refine (Cert.LibRank3.multiReduction_add_last_apply _ _ _ _ _ p o).trans ?_
  refine Finset.sum_congr rfl fun e _ => ?_
  rw [(loop_at c i arg1 harg1 arg2 harg2 arg3 harg3 arg4 harg4 arg5 harg5 arg6 harg6 arg7 harg7 arg8 harg8 x0 x1 x2 x3 x4 x5 p o e 20 (Nat.le_refl 20)).1, Cert.Spec.psum_all]

/-- THE SECOND OUTPUT BLOCK at `(p, o)`: the variance, each edge's share cut off below at zero. -/
theorem out7_at (c : Dev nD) (i : grid0.Coords) (arg1 : Memref sig .tc .vmem S128x64 .f32) (harg1 : arg1.IsWhole) (arg2 : Memref sig .tc .vmem S20x64x64 .f32) (harg2 : arg2.IsWhole) (arg3 : Memref sig .tc .vmem S20x64x64 .f32) (harg3 : arg3.IsWhole) (arg4 : Memref sig .tc .vmem S20x64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S128x64 .f32) (harg7 : arg7.IsWhole) (arg8 : Memref sig .tc .vmem S128x64 .f32) (harg8 : arg8.IsWhole) (x0 : Vec Ideal S128x64 .f32) (x1 : Vec Ideal S20x64x64 .f32) (x2 : Vec Ideal S20x64x64 .f32) (x3 : Vec Ideal S20x64x64 .f32) (x4 : Vec Ideal S64x64 .f32) (x5 : Vec Ideal S64x64 .f32) (p : Fin 128) (o : Fin 64) :
    out0_A_7 (F := Ideal) c i arg1 harg1 arg2 harg2 arg3 harg3 arg4 harg4 arg5 harg5 arg6 harg6 arg7 harg7 arg8 harg8 x0 x1 x2 x3 x4 x5 (ix2 p o)
      = Cert.Spec.varAt (fun e => x0 (ix2 p e)) (fun e m => x1 (ix3 m o e)) (fun e m => x2 (ix3 m o e))
          (fun e m => x3 (ix3 m o e)) (fun e => x4 (ix2 o e)) (fun e => x5 (ix2 o e)) := by
  rw [out7_eq]
  unfold k0_pay13 Cert.Spec.varAt
  refine (Cert.LibRank3.multiReduction_add_last_apply _ _ _ _ _ p o).trans ?_
  refine Finset.sum_congr rfl fun e _ => ?_
  rw [maximumf_apply, broadcast_apply,
    (loop_at c i arg1 harg1 arg2 harg2 arg3 harg3 arg4 harg4 arg5 harg5 arg6 harg6 arg7 harg7 arg8 harg8 x0 x1 x2 x3 x4 x5 p o e 20 (Nat.le_refl 20)).2, Cert.Spec.psum_all]
  rw [show (FloatOps.ofBits (F := Ideal) .f32 0x00000000#32 : EReal) = Ideal.ofBits .f32 0x00000000#32 from rfl,
    Cert.Lits.ofBits_zero]

end Cert.KernelIdeal.Body

end
-- ==== Proof.KFinal.lean ====
/-
  From blocks to the result arrays, and the kernel's run.

  Grid point `t` stages rows `128 t .. 128 t + 127` of `x` and the whole parameter arrays (the three [64,64,20] arrays
  with the inducing axis moved to the front by the host before the call), runs the body, and writes its two [128,64]
  blocks back as rows `128 t ..` of the two results. The body's blocks (KLoop) at those input blocks are therefore the rows
  `128 t ..` of the specification's `yMean` and `yVar` of the argument arrays; the eight row blocks cover the results.
-/
import proofs.«125897_j63934883168343_2_alg».proof.Proof.KLoop

noncomputable section

open scoped BigOperators
open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Body Cert.KernelIdeal.Value Idealize.ShloMosaic.ValueIdx

variable (m : (ℓ : Loc nD τ sig) → Buf (Elt Ideal) ℓ) (ρ : Dev nD → PrngReg)

/-- The printed index maps over the grid: the blocks of `x` and of the two results move with the point along the rows,
    every parameter block stays at the origin. -/
theorem idx_facts : ∀ t : Fin cfg0.N,
    win0_0.index t (0 : Fin 2) = t.val ∧ win0_0.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## The arrays the region finds -/

/-- The host moves the inducing axis of the three parameter arrays to the front before the call. -/
theorem V_main_v0 (c : Dev nD) : (V m c main_v0 : S20x64x64.Idx → EReal)
    = transpose S20x64x64 [2, 0, 1] (m ((c : Thread nD τ).loc main_arg1)) transposes_S64x64x20_S20x64x64_2_0_1 := by
  dsimp only [V, hostOps0]; after_results

theorem V_main_v1 (c : Dev nD) : (V m c main_v1 : S20x64x64.Idx → EReal)
    = transpose S20x64x64 [2, 0, 1] (m ((c : Thread nD τ).loc main_arg2)) transposes_S64x64x20_S20x64x64_2_0_1 := by
  dsimp only [V, hostOps0]; after_results

theorem V_main_v2 (c : Dev nD) : (V m c main_v2 : S20x64x64.Idx → EReal)
    = transpose S20x64x64 [2, 0, 1] (m ((c : Thread nD τ).loc main_arg3)) transposes_S64x64x20_S20x64x64_2_0_1 := by
  dsimp only [V, hostOps0]; after_results

/-! ## The input blocks at a point -/

/-- Window 0's block at point `t` is rows `128 t ..` of `x`. -/
theorem blk0_at (c : Dev nD) (t : Fin cfg0.N) (p : Fin 128) (e : Fin 64) (h : 128 * t.val + p.val < 1024) :
    iblk m c 0 t (ix2 p e) = (m ((c : Thread nD τ).loc main_arg0)) (ix2 (⟨128 * t.val + p.val, h⟩ : Fin 1024) e) := by
  unfold iblk
  rw [View.read_apply]
  show V m c main_arg0 (((cfg0.win 0).blk t).view.emb (ix2 p e)) = _
  rw [V_main_arg0]
  obtain ⟨e0, e1, -⟩ := idx_facts t
  refine congrArg _ (funext fun a => Fin.ext ?_)
  match a with
  | ⟨0, _⟩ => show win0_0.index t (0 : Fin 2) * 128 + 1 * p.val = 128 * t.val + p.val; omega
  | ⟨1, _⟩ => show win0_0.index t (1 : Fin 2) * 64 + 1 * e.val = e.val; omega

/-- Window 1's block is the whole transposed array: at `(k, o, e)` the argument at `(o, e, k)`. -/
theorem blk1_at (c : Dev nD) (t : Fin cfg0.N) (k : Fin 20) (o e : Fin 64) :
    iblk m c 1 t (ix3 k o e) = (m ((c : Thread nD τ).loc main_arg1)) (ix3 o e k) := by
  unfold iblk
  rw [View.read_apply]
  show V m c main_v0 (((cfg0.win 1).blk t).view.emb (ix3 k o e)) = _
  have hemb : ((cfg0.win 1).blk t).view.emb (ix3 k o e) = ix3 k o e := by
    obtain ⟨-, -, -, -, -, -, a1, a2, a3, b1, b2, b3, c1, c2, c3, -⟩ := idx_facts t
    funext a; apply Fin.ext
    match a with
    | ⟨0, _⟩ => show win0_1.index t (0 : Fin 3) * 20 + 1 * k.val = k.val; omega
    | ⟨1, _⟩ => show win0_1.index t (1 : Fin 3) * 64 + 1 * o.val = o.val; omega
    | ⟨2, _⟩ => show win0_1.index t (2 : Fin 3) * 64 + 1 * e.val = e.val; omega
  rw [hemb, V_main_v0]
  exact transpose_apply _ _ _ (ix3 k o e) (ix3 o e k) (fun b => match b with | ⟨0, _⟩ => rfl | ⟨1, _⟩ => rfl | ⟨2, _⟩ => rfl)

/-- Window 2's block is the whole transposed array: at `(k, o, e)` the argument at `(o, e, k)`. -/
theorem blk2_at (c : Dev nD) (t : Fin cfg0.N) (k : Fin 20) (o e : Fin 64) :
    iblk m c 2 t (ix3 k o e) = (m ((c : Thread nD τ).loc main_arg2)) (ix3 o e k) := by
  unfold iblk
  rw [View.read_apply]
  show V m c main_v1 (((cfg0.win 2).blk t).view.emb (ix3 k o e)) = _
  have hemb : ((cfg0.win 2).blk t).view.emb (ix3 k o e) = ix3 k o e := by
    obtain ⟨-, -, -, -, -, -, a1, a2, a3, b1, b2, b3, c1, c2, c3, -⟩ := idx_facts t
    funext a; apply Fin.ext
    match a with
    | ⟨0, _⟩ => show win0_2.index t (0 : Fin 3) * 20 + 1 * k.val = k.val; omega
    | ⟨1, _⟩ => show win0_2.index t (1 : Fin 3) * 64 + 1 * o.val = o.val; omega
    | ⟨2, _⟩ => show win0_2.index t (2 : Fin 3) * 64 + 1 * e.val = e.val; omega
  rw [hemb, V_main_v1]
  exact transpose_apply _ _ _ (ix3 k o e) (ix3 o e k) (fun b => match b with | ⟨0, _⟩ => rfl | ⟨1, _⟩ => rfl | ⟨2, _⟩ => rfl)

/-- Window 3's block is the whole transposed array: at `(k, o, e)` the argument at `(o, e, k)`. -/
theorem blk3_at (c : Dev nD) (t : Fin cfg0.N) (k : Fin 20) (o e : Fin 64) :
    iblk m c 3 t (ix3 k o e) = (m ((c : Thread nD τ).loc main_arg3)) (ix3 o e k) := by
  unfold iblk
  rw [View.read_apply]
  show V m c main_v2 (((cfg0.win 3).blk t).view.emb (ix3 k o e)) = _
  have hemb : ((cfg0.win 3).blk t).view.emb (ix3 k o e) = ix3 k o e := by
    obtain ⟨-, -, -, -, -, -, a1, a2, a3, b1, b2, b3, c1, c2, c3, -⟩ := idx_facts t
    funext a; apply Fin.ext
    match a with
    | ⟨0, _⟩ => show win0_3.index t (0 : Fin 3) * 20 + 1 * k.val = k.val; omega
    | ⟨1, _⟩ => show win0_3.index t (1 : Fin 3) * 64 + 1 * o.val = o.val; omega
    | ⟨2, _⟩ => show win0_3.index t (2 : Fin 3) * 64 + 1 * e.val = e.val; omega
  rw [hemb, V_main_v2]
  exact transpose_apply _ _ _ (ix3 k o e) (ix3 o e k) (fun b => match b with | ⟨0, _⟩ => rfl | ⟨1, _⟩ => rfl | ⟨2, _⟩ => rfl)

/-- Window 4's block is the whole [64,64] argument. -/
theorem blk4_at (c : Dev nD) (t : Fin cfg0.N) (o e : Fin 64) :
    iblk m c 4 t (ix2 o e) = (m ((c : Thread nD τ).loc main_arg4)) (ix2 o e) := by
  unfold iblk
  rw [View.read_apply]
  show V m c main_arg4 (((cfg0.win 4).blk t).view.emb (ix2 o e)) = _
  rw [V_main_arg4]
  obtain ⟨-, -, -, -, -, -, -, -, -, -, -, -, -, -, -, d1, d2, e1, e2⟩ := idx_facts t
  refine congrArg _ (funext fun a => Fin.ext ?_)
  match a with
  | ⟨0, _⟩ => show win0_4.index t (0 : Fin 2) * 64 + 1 * o.val = o.val; omega
  | ⟨1, _⟩ => show win0_4.index t (1 : Fin 2) * 64 + 1 * e.val = e.val; omega

/-- Window 5's block is the whole [64,64] argument. -/
theorem blk5_at (c : Dev nD) (t : Fin cfg0.N) (o e : Fin 64) :
    iblk m c 5 t (ix2 o e) = (m ((c : Thread nD τ).loc main_arg5)) (ix2 o e) := by
  unfold iblk
  rw [View.read_apply]
  show V m c main_arg5 (((cfg0.win 5).blk t).view.emb (ix2 o e)) = _
  rw [V_main_arg5]
  obtain ⟨-, -, -, -, -, -, -, -, -, -, -, -, -, -, -, d1, d2, e1, e2⟩ := idx_facts t
  refine congrArg _ (funext fun a => Fin.ext ?_)
  match a with
  | ⟨0, _⟩ => show win0_5.index t (0 : Fin 2) * 64 + 1 * o.val = o.val; omega
  | ⟨1, _⟩ => show win0_5.index t (1 : Fin 2) * 64 + 1 * e.val = e.val; omega

/-! ## The two results -/

/-- The specification's mean array of the launch contents of the arguments. -/
abbrev GM (c : Dev nD) : Buf (Elt Ideal) ((c : Thread nD τ).loc main_v3_0) :=
  Cert.Spec.yMean (m ((c : Thread nD τ).loc main_arg0)) (m ((c : Thread nD τ).loc main_arg1)) (m ((c : Thread nD τ).loc main_arg2)) (m ((c : Thread nD τ).loc main_arg4)) (m ((c : Thread nD τ).loc main_arg5))

/-- The specification's variance array of the launch contents of the arguments. -/
abbrev GV (c : Dev nD) : Buf (Elt Ideal) ((c : Thread nD τ).loc main_v3_1) :=
  Cert.Spec.yVar (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- An index of the result array is in point `t`'s block of window 6 iff each coordinate is in the block's range. -/
theorem mem_blk6 (t : Fin cfg0.N) (i : S1024x64.Idx) :
    i ∈ ((cfg0.win 6).blk t).view.set ↔ ∀ a : Fin 2, win0_6.index t a * S128x64.size a ≤ (i a).val ∧ (i a).val < win0_6.index t a * S128x64.size a + S128x64.size a := by
  show i ∈ ((View.whole main_v3_0).slice (win0_6.rect t)).set ↔ _
  rw [View.set_slice_whole, Rect.mem_set_unit]
  exact Iff.rfl

/-- Row `r` of the result lies in the block of grid point `r / 128`. -/
theorem cover6 (i : S1024x64.Idx) : ∃ t : Fin cfg0.N, (cfg0.win 6).flush t = true ∧ i ∈ ((cfg0.win 6).blk t).view.set := by
  have hi0 : (i 0).val < 1024 := (i 0).isLt
  have hi1 : (i 1).val < 64 := (i 1).isLt
  have hN : cfg0.N = 8 := N_0
  obtain ⟨t, ht⟩ : ∃ t : Fin cfg0.N, t.val = (i 0).val / 128 := ⟨⟨(i 0).val / 128, by rw [hN]; omega⟩, rfl⟩
  refine ⟨t, flush0_6 t, ?_⟩
  rw [mem_blk6]
  obtain ⟨-, -, f0, f1, g0, g1, -⟩ := idx_facts t
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 64 ≤ (i 1).val ∧ (i 1).val < win0_6.index t (1 : Fin 2) * 64 + 64; omega

/-- WHAT POINT `t` WRITES BACK through window 6 is block `t` of the specification's array: row `p` of the block is row
    `128 t + p` of `x`, and the parameter blocks are the whole (transposed) parameter arrays. -/
theorem flushed6_eq (c : Dev nD) (t : Fin cfg0.N) :
    (dats m 0 c).flushed 6 t = ((cfg0.win 6).blk t).view.read (Elt Ideal) (GM m c) := by
  rw [flushed6_A]
  funext j
  obtain ⟨p, o, rfl⟩ : ∃ (p : Fin 128) (o : Fin 64), j = ix2 p o := ⟨j 0, j 1, eq_ix2 j⟩
  have hN : cfg0.N = 8 := N_0
  have ht : t.val < 8 := by have := t.isLt; omega
  have hrow : 128 * t.val + p.val < 1024 := by have := p.isLt; omega
  obtain ⟨-, -, f0, f1, g0, g1, -⟩ := idx_facts t
  have hemb : ((cfg0.win 6).blk t).view.emb (ix2 p o) = ix2 (⟨128 * t.val + p.val, hrow⟩ : Fin 1024) o := by
    funext a; apply Fin.ext
    match a with
    | ⟨0, _⟩ => show win0_6.index t (0 : Fin 2) * 128 + 1 * p.val = 128 * t.val + p.val; omega
    | ⟨1, _⟩ => show win0_6.index t (1 : Fin 2) * 64 + 1 * o.val = o.val; omega
  have key : out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (ix2 p o)
      = GM m c (ix2 (⟨128 * t.val + p.val, hrow⟩ : Fin 1024) o) := by
    rw [out6_at]
    show Cert.Spec.meanAt _ _ _ _ _ = Cert.Spec.meanAt _ _ _ _ _
    unfold Cert.Spec.meanAt
    refine Finset.sum_congr rfl fun e _ => ?_
    refine Finset.sum_congr rfl fun k _ => ?_
    show Cert.Spec.meanTerm (iblk m c 0 t (ix2 p e)) (iblk m c 1 t (ix3 k o e)) (iblk m c 2 t (ix3 k o e))
          (iblk m c 4 t (ix2 o e)) (iblk m c 5 t (ix2 o e))
        = Cert.Spec.meanTerm ((m ((c : Thread nD τ).loc main_arg0)) (ix2 (⟨128 * t.val + p.val, hrow⟩ : Fin 1024) e))
            ((m ((c : Thread nD τ).loc main_arg1)) (ix3 o e k)) ((m ((c : Thread nD τ).loc main_arg2)) (ix3 o e k)) ((m ((c : Thread nD τ).loc main_arg4)) (ix2 o e)) ((m ((c : Thread nD τ).loc main_arg5)) (ix2 o e))
    rw [blk0_at m c t p e hrow, blk1_at, blk2_at, blk4_at, blk5_at]
  rw [View.read_apply, hemb]
  exact key

/-- So the result array of window 6 ends holding the specification's array. -/
theorem final6 (c : Dev nD) : (dats m 0 c).arrAt 6 cfg0.N = GM m c :=
  (dats m 0 c).arrAt_eq_of_cover 6 (GM m c) (fun t _ => flushed6_eq m c t) cover6

/-- An index of the result array is in point `t`'s block of window 7 iff each coordinate is in the block's range. -/
theorem mem_blk7 (t : Fin cfg0.N) (i : S1024x64.Idx) :
    i ∈ ((cfg0.win 7).blk t).view.set ↔ ∀ a : Fin 2, win0_7.index t a * S128x64.size a ≤ (i a).val ∧ (i a).val < win0_7.index t a * S128x64.size a + S128x64.size a := by
  show i ∈ ((View.whole main_v3_1).slice (win0_7.rect t)).set ↔ _
  rw [View.set_slice_whole, Rect.mem_set_unit]
  exact Iff.rfl

/-- Row `r` of the result lies in the block of grid point `r / 128`. -/
theorem cover7 (i : S1024x64.Idx) : ∃ t : Fin cfg0.N, (cfg0.win 7).flush t = true ∧ i ∈ ((cfg0.win 7).blk t).view.set := by
  have hi0 : (i 0).val < 1024 := (i 0).isLt
  have hi1 : (i 1).val < 64 := (i 1).isLt
  have hN : cfg0.N = 8 := N_0
  obtain ⟨t, ht⟩ : ∃ t : Fin cfg0.N, t.val = (i 0).val / 128 := ⟨⟨(i 0).val / 128, by rw [hN]; omega⟩, rfl⟩
  refine ⟨t, flush0_7 t, ?_⟩
  rw [mem_blk7]
  obtain ⟨-, -, f0, f1, g0, g1, -⟩ := idx_facts t
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 64 ≤ (i 1).val ∧ (i 1).val < win0_7.index t (1 : Fin 2) * 64 + 64; omega

/-- WHAT POINT `t` WRITES BACK through window 7 is block `t` of the specification's array: row `p` of the block is row
    `128 t + p` of `x`, and the parameter blocks are the whole (transposed) parameter arrays. -/
theorem flushed7_eq (c : Dev nD) (t : Fin cfg0.N) :
    (dats m 0 c).flushed 7 t = ((cfg0.win 7).blk t).view.read (Elt Ideal) (GV m c) := by
  rw [flushed7_A]
  funext j
  obtain ⟨p, o, rfl⟩ : ∃ (p : Fin 128) (o : Fin 64), j = ix2 p o := ⟨j 0, j 1, eq_ix2 j⟩
  have hN : cfg0.N = 8 := N_0
  have ht : t.val < 8 := by have := t.isLt; omega
  have hrow : 128 * t.val + p.val < 1024 := by have := p.isLt; omega
  obtain ⟨-, -, f0, f1, g0, g1, -⟩ := idx_facts t
  have hemb : ((cfg0.win 7).blk t).view.emb (ix2 p o) = ix2 (⟨128 * t.val + p.val, hrow⟩ : Fin 1024) o := by
    funext a; apply Fin.ext
    match a with
    | ⟨0, _⟩ => show win0_7.index t (0 : Fin 2) * 128 + 1 * p.val = 128 * t.val + p.val; omega
    | ⟨1, _⟩ => show win0_7.index t (1 : Fin 2) * 64 + 1 * o.val = o.val; omega
  have key : out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (ix2 p o)
      = GV m c (ix2 (⟨128 * t.val + p.val, hrow⟩ : Fin 1024) o) := by
    rw [out7_at]
    show Cert.Spec.varAt _ _ _ _ _ _ = Cert.Spec.varAt _ _ _ _ _ _
    unfold Cert.Spec.varAt
    refine Finset.sum_congr rfl fun e _ => ?_
    refine congrArg (max 0) ?_
    refine Finset.sum_congr rfl fun k _ => ?_
    show Cert.Spec.varTerm (iblk m c 0 t (ix2 p e)) (iblk m c 1 t (ix3 k o e)) (iblk m c 2 t (ix3 k o e))
          (iblk m c 3 t (ix3 k o e)) (iblk m c 4 t (ix2 o e)) (iblk m c 5 t (ix2 o e))
        = Cert.Spec.varTerm ((m ((c : Thread nD τ).loc main_arg0)) (ix2 (⟨128 * t.val + p.val, hrow⟩ : Fin 1024) e))
            ((m ((c : Thread nD τ).loc main_arg1)) (ix3 o e k)) ((m ((c : Thread nD τ).loc main_arg2)) (ix3 o e k)) ((m ((c : Thread nD τ).loc main_arg3)) (ix3 o e k)) ((m ((c : Thread nD τ).loc main_arg4)) (ix2 o e)) ((m ((c : Thread nD τ).loc main_arg5)) (ix2 o e))
    rw [blk0_at m c t p e hrow, blk1_at, blk2_at, blk3_at, blk4_at, blk5_at]
  rw [View.read_apply, hemb]
  exact key

/-- So the result array of window 7 ends holding the specification's array. -/
theorem final7 (c : Dev nD) : (dats m 0 c).arrAt 7 cfg0.N = GV m c :=
  (dats m 0 c).arrAt_eq_of_cover 7 (GV m c) (fun t _ => flushed7_eq m c t) cover7

/-! ## The run -/

/-- Every weakly fair execution of the kernel's program ends with the two results at the specification's arrays of the
    launch contents of the arguments, and the arguments unchanged. -/
theorem run : θ_run defs (onTc (τ := τ) (main (F := Ideal))) ⟨m, fun _ => 0, ρ⟩ fun r => ∀ c : Dev nD,
      r.2.mem ((c : Thread nD τ).loc main_v3_0) = GM m c
      ∧ r.2.mem ((c : Thread nD τ).loc main_v3_1) = GV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (run_blocks m ρ)

end Cert.KernelIdeal.Final

end
-- ==== Proof.RefSpec.lean ====
/-
  The reference program computes the specification.

  Each intermediate array of the reference is read at an index written by its coordinates — a batch row `b`, an output
  unit `o`, an input unit `i`, an inducing point `m`, and a unit coordinate `u` on an axis of size one — and shown to be
  the specification's scalar function of the matching entries of the arguments. A broadcast reads its operand at the
  index that keeps the coordinates the operand has and puts zero on its unit axes; a pointwise operation is the same
  operation on the extended reals; a sum along an axis is the initial value, the zero word, plus the finite sum over that
  axis. The two results are then the double sums of the specification, term by term.
-/
import proofs.«125897_j63934883168343_2_alg».proof.Proof.Gen.ReferenceIdeal.Read
import proofs.«125897_j63934883168343_2_alg».proof.Proof.Spec
import proofs.«125897_j63934883168343_2_alg».proof.Proof.Lits
import Idealize.ShloMosaic.Lib.ValueIdx
import Idealize.ShloMosaic.PureOps.Ideal.Laws

noncomputable section

open scoped BigOperators

namespace Cert.RefSpec

open Cert.ReferenceIdeal Cert.ReferenceIdeal.Read Idealize.ShloMosaic Idealize.ShloMosaic.ValueIdx
open Cert.Spec

/-- Two indices of a rank-2 shape with the same coordinates are equal. -/
local macro "idx2" : tactic =>
  `(tactic| (funext a; apply Fin.ext; match a with | ⟨0, _⟩ => rfl | ⟨1, _⟩ => rfl))
/-- The same at rank 3. -/
local macro "idx3" : tactic =>
  `(tactic| (funext a; apply Fin.ext; match a with | ⟨0, _⟩ => rfl | ⟨1, _⟩ => rfl | ⟨2, _⟩ => rfl))
/-- The same at rank 4. -/
local macro "idx4" : tactic =>
  `(tactic| (funext a; apply Fin.ext; match a with | ⟨0, _⟩ => rfl | ⟨1, _⟩ => rfl | ⟨2, _⟩ => rfl | ⟨3, _⟩ => rfl))

variable (x0 : (⟨S1024x64, .f32⟩ : BufTy).Contents (Elt Ideal))
  (x1 x2 x3 : (⟨S64x64x20, .f32⟩ : BufTy).Contents (Elt Ideal))
  (x4 x5 : (⟨S64x64, .f32⟩ : BufTy).Contents (Elt Ideal))
  (b : Fin 1024) (o i : Fin 64) (m : Fin 20) (u u' : Fin 1)

/-! ## The per-edge parameters -/

/-- The clipped scale of an edge. -/
theorem v6_at : val_main_v6 (F := Ideal) x4 (ix2 o i)
    = max (Ideal.ofBits .f32 0x3DCCCCCD#32) (Ideal.exp (x4 (ix2 o i))) := by
  rw [val_main_v6_apply, val_main_call2_v1_apply, val_main_call2_v0_apply, val_main_cst_2_apply, val_main_v5_apply]
  rfl

/-- The squared length scale of an edge. -/
theorem v10_at : val_main_v10 (F := Ideal) x4 (ix2 o i) = ell2 (x4 (ix2 o i)) := by
  rw [val_main_v10_apply, v6_at]
  rfl

/-- The signal variance of an edge. -/
theorem v4_at : val_main_v4 (F := Ideal) x5 (ix2 o i) = sig2 (x5 (ix2 o i)) := by
  rw [val_main_v4_apply, val_main_call1_v1_apply, val_main_call1_v0_apply, val_main_cst_1_apply, val_main_v3_apply]
  rfl

/-- The variance of an inducing weight. -/
theorem v2_at : val_main_v2 (F := Ideal) x3 (ix3 o i m) = qvar (x3 (ix3 o i m)) := by
  rw [val_main_v2_apply, val_main_call0_v1_apply, val_main_call0_v0_apply, val_main_cst_0_apply, val_main_v1_apply]
  rfl

/-- The squared length scale, laid out with unit axes around the edge's two. -/
theorem v11_at : val_main_v11 (F := Ideal) x4 (ix4 u o i u') = ell2 (x4 (ix2 o i)) := by
  rw [val_main_v11_apply, show idx_main_v11 (ix4 u o i u') = ix2 o i from by idx2, v10_at]

/-- The signal variance, laid out likewise. -/
theorem v12_at : val_main_v12 (F := Ideal) x5 (ix4 u o i u') = sig2 (x5 (ix2 o i)) := by
  rw [val_main_v12_apply, show idx_main_v12 (ix4 u o i u') = ix2 o i from by idx2, v4_at]

/-- The squared length scale over the batch. -/
theorem v17_at : val_main_v17 (F := Ideal) x4 (ix4 b o i u) = ell2 (x4 (ix2 o i)) := by
  rw [val_main_v17_apply,
    show idx_main_v17 (ix4 b o i u) = ix4 (⟨0, Nat.one_pos⟩ : Fin 1) o i (⟨0, Nat.one_pos⟩ : Fin 1) from by idx4, v11_at]

/-- The same array again: the reference broadcasts it once per use. -/
theorem v20_at : val_main_v20 (F := Ideal) x4 (ix4 b o i u) = ell2 (x4 (ix2 o i)) := by
  rw [val_main_v20_apply,
    show idx_main_v20 (ix4 b o i u) = ix4 (⟨0, Nat.one_pos⟩ : Fin 1) o i (⟨0, Nat.one_pos⟩ : Fin 1) from by idx4, v11_at]

theorem v35_at : val_main_v35 (F := Ideal) x4 (ix4 b o i u) = ell2 (x4 (ix2 o i)) := by
  rw [val_main_v35_apply,
    show idx_main_v35 (ix4 b o i u) = ix4 (⟨0, Nat.one_pos⟩ : Fin 1) o i (⟨0, Nat.one_pos⟩ : Fin 1) from by idx4, v11_at]

theorem v39_at : val_main_v39 (F := Ideal) x4 (ix4 b o i u) = ell2 (x4 (ix2 o i)) := by
  rw [val_main_v39_apply,
    show idx_main_v39 (ix4 b o i u) = ix4 (⟨0, Nat.one_pos⟩ : Fin 1) o i (⟨0, Nat.one_pos⟩ : Fin 1) from by idx4, v11_at]

/-- The signal variance over the batch. -/
theorem v23_at : val_main_v23 (F := Ideal) x5 (ix4 b o i u) = sig2 (x5 (ix2 o i)) := by
  rw [val_main_v23_apply,
    show idx_main_v23 (ix4 b o i u) = ix4 (⟨0, Nat.one_pos⟩ : Fin 1) o i (⟨0, Nat.one_pos⟩ : Fin 1) from by idx4, v12_at]

/-! ## The input variance: one constant everywhere -/

theorem v0_at (j : S1024x64.Idx) : val_main_v0 (F := Ideal) j = Ideal.ofBits .f32 0x358637BD#32 := by
  rw [val_main_v0_apply, val_main_cst_apply]
  rfl

theorem v8_at (j : S1024x1x64x1.Idx) : val_main_v8 (F := Ideal) j = Ideal.ofBits .f32 0x358637BD#32 := by
  rw [val_main_v8_apply, v0_at]

theorem v18_at (j : S1024x64x64x1.Idx) : val_main_v18 (F := Ideal) j = Ideal.ofBits .f32 0x358637BD#32 := by
  rw [val_main_v18_apply, v8_at]

/-- Twice the input variance, as the product the reference forms. -/
theorem v34_at (j : S1024x1x64x1.Idx) : val_main_v34 (F := Ideal) j
    = Ideal.ofBits .f32 0x40000000#32 * Ideal.ofBits .f32 0x358637BD#32 := by
  rw [val_main_v34_apply, val_main_v33_apply, val_main_cst_4_apply, v8_at]
  rfl

theorem v36_at (j : S1024x64x64x1.Idx) : val_main_v36 (F := Ideal) j
    = Ideal.ofBits .f32 0x40000000#32 * Ideal.ofBits .f32 0x358637BD#32 := by
  rw [val_main_v36_apply, v34_at]

/-! ## The two denominators and the two amplitudes -/

theorem v19_at : val_main_v19 (F := Ideal) x4 (ix4 b o i u) = den1 (x4 (ix2 o i)) := by
  rw [val_main_v19_apply, v17_at, v18_at]
  rfl

theorem v37_at : val_main_v37 (F := Ideal) x4 (ix4 b o i u) = den2 (x4 (ix2 o i)) := by
  rw [val_main_v37_apply, v35_at, v36_at]
  rfl

/-- The amplitude of the expected kernel value. -/
theorem v24_at : val_main_v24 (F := Ideal) x4 x5 (ix4 b o i u)
    = sig2 (x5 (ix2 o i)) * Ideal.sqrt (Ideal.div (ell2 (x4 (ix2 o i))) (den1 (x4 (ix2 o i)))) := by
  rw [val_main_v24_apply, v23_at, val_main_v22_apply, val_main_v21_apply, v20_at, v19_at]
  rfl

/-- The amplitude of the expected squared kernel value. -/
theorem v43_at : val_main_v43 (F := Ideal) x4 x5 (ix4 b o i u)
    = (sig2 (x5 (ix2 o i)) * sig2 (x5 (ix2 o i)))
      * Ideal.sqrt (Ideal.div (ell2 (x4 (ix2 o i))) (den2 (x4 (ix2 o i)))) := by
  rw [val_main_v43_apply, val_main_v42_apply,
    show idx_main_v42 (ix4 b o i u) = ix4 (⟨0, Nat.one_pos⟩ : Fin 1) o i (⟨0, Nat.one_pos⟩ : Fin 1) from by idx4,
    val_main_v38_apply, v12_at, val_main_v41_apply, val_main_v40_apply, v39_at, v37_at]
  rfl

/-- Twice the first denominator. -/
theorem v27_at : val_main_v27 (F := Ideal) x4 (ix4 b o i u)
    = Ideal.ofBits .f32 0x40000000#32 * den1 (x4 (ix2 o i)) := by
  rw [val_main_v27_apply, val_main_v26_apply, val_main_cst_3_apply, v19_at]
  rfl

/-! ## The squared distance and the two exponentials -/

theorem v7_at : val_main_v7 (F := Ideal) x0 (ix4 b u i u') = x0 (ix2 b i) := by
  rw [val_main_v7_apply, show idx_main_v7 (ix4 b u i u') = ix2 b i from by idx2]

theorem v9_at : val_main_v9 (F := Ideal) x1 (ix4 u o i m) = x1 (ix3 o i m) := by
  rw [val_main_v9_apply, show idx_main_v9 (ix4 u o i m) = ix3 o i m from by idx3]

theorem v16_at : val_main_v16 (F := Ideal) x0 x1 (ix4 b o i m) = dist2 (x0 (ix2 b i)) (x1 (ix3 o i m)) := by
  rw [val_main_v16_apply, val_main_v15_apply, val_main_v13_apply, val_main_v14_apply,
    show idx_main_v13 (ix4 b o i m) = ix4 b (⟨0, Nat.one_pos⟩ : Fin 1) i (⟨0, Nat.one_pos⟩ : Fin 1) from by idx4,
    show idx_main_v14 (ix4 b o i m) = ix4 (⟨0, Nat.one_pos⟩ : Fin 1) o i m from by idx4, v7_at, v9_at]
  rfl

/-- The exponential factor of the expected kernel value. -/
theorem v30_at : val_main_v30 (F := Ideal) x0 x1 x4 (ix4 b o i m)
    = Ideal.exp (Ideal.div (-(dist2 (x0 (ix2 b i)) (x1 (ix3 o i m))))
        (Ideal.ofBits .f32 0x40000000#32 * den1 (x4 (ix2 o i)))) := by
  rw [val_main_v30_apply, val_main_v29_apply, val_main_v25_apply, v16_at, val_main_v28_apply,
    show idx_main_v28 (ix4 b o i m) = ix4 b o i (⟨0, Nat.one_pos⟩ : Fin 1) from by idx4, v27_at]
  rfl

/-- The exponential factor of the expected squared kernel value. -/
theorem v47_at : val_main_v47 (F := Ideal) x0 x1 x4 (ix4 b o i m)
    = Ideal.exp (Ideal.div (-(dist2 (x0 (ix2 b i)) (x1 (ix3 o i m)))) (den2 (x4 (ix2 o i)))) := by
  rw [val_main_v47_apply, val_main_v46_apply, val_main_v44_apply, v16_at, val_main_v45_apply,
    show idx_main_v45 (ix4 b o i m) = ix4 b o i (⟨0, Nat.one_pos⟩ : Fin 1) from by idx4, v37_at]
  rfl

/-! ## The two expected kernel values -/

theorem v32_at : val_main_v32 (F := Ideal) x0 x1 x4 x5 (ix4 b o i m)
    = psi1 (x0 (ix2 b i)) (x1 (ix3 o i m)) (x4 (ix2 o i)) (x5 (ix2 o i)) := by
  rw [val_main_v32_apply, val_main_v31_apply,
    show idx_main_v31 (ix4 b o i m) = ix4 b o i (⟨0, Nat.one_pos⟩ : Fin 1) from by idx4, v24_at, v30_at]
  rfl

theorem v49_at : val_main_v49 (F := Ideal) x0 x1 x4 x5 (ix4 b o i m)
    = ek2 (x0 (ix2 b i)) (x1 (ix3 o i m)) (x4 (ix2 o i)) (x5 (ix2 o i)) := by
  rw [val_main_v49_apply, val_main_v48_apply,
    show idx_main_v48 (ix4 b o i m) = ix4 b o i (⟨0, Nat.one_pos⟩ : Fin 1) from by idx4, v43_at, v47_at]
  rfl

/-! ## The inducing weights and the terms of the two sums -/

theorem v50_at : val_main_v50 (F := Ideal) x2 (ix4 u o i m) = x2 (ix3 o i m) := by
  rw [val_main_v50_apply, show idx_main_v50 (ix4 u o i m) = ix3 o i m from by idx3]

theorem v51_at : val_main_v51 (F := Ideal) x3 (ix4 u o i m) = qvar (x3 (ix3 o i m)) := by
  rw [val_main_v51_apply, show idx_main_v51 (ix4 u o i m) = ix3 o i m from by idx3, v2_at]

/-- One inducing point's share of the mean. -/
theorem v53_at : val_main_v53 (F := Ideal) x0 x1 x2 x4 x5 (ix4 b o i m)
    = meanTerm (x0 (ix2 b i)) (x1 (ix3 o i m)) (x2 (ix3 o i m)) (x4 (ix2 o i)) (x5 (ix2 o i)) := by
  rw [val_main_v53_apply, v32_at, val_main_v52_apply,
    show idx_main_v52 (ix4 b o i m) = ix4 (⟨0, Nat.one_pos⟩ : Fin 1) o i m from by idx4, v50_at]
  rfl

/-- One inducing point's share of the second moment. -/
theorem v58_at : val_main_v58 (F := Ideal) x0 x1 x2 x3 x4 x5 (ix4 b o i m)
    = gainTerm (x0 (ix2 b i)) (x1 (ix3 o i m)) (x2 (ix3 o i m)) (x3 (ix3 o i m)) (x4 (ix2 o i)) (x5 (ix2 o i)) := by
  rw [val_main_v58_apply, v49_at, val_main_v57_apply,
    show idx_main_v57 (ix4 b o i m) = ix4 (⟨0, Nat.one_pos⟩ : Fin 1) o i m from by idx4,
    val_main_v56_apply, val_main_v55_apply, v50_at, v51_at]
  rfl

/-- One inducing point's share of the squared mean. -/
theorem v62_at : val_main_v62 (F := Ideal) x0 x1 x2 x4 x5 (ix4 b o i m)
    = lossTerm (x0 (ix2 b i)) (x1 (ix3 o i m)) (x2 (ix3 o i m)) (x4 (ix2 o i)) (x5 (ix2 o i)) := by
  rw [val_main_v62_apply, val_main_v59_apply, v32_at, val_main_v61_apply,
    show idx_main_v61 (ix4 b o i m) = ix4 (⟨0, Nat.one_pos⟩ : Fin 1) o i m from by idx4, val_main_v60_apply, v50_at]
  rfl

/-- One inducing point's share of the variance. -/
theorem v63_at : val_main_v63 (F := Ideal) x0 x1 x2 x3 x4 x5 (ix4 b o i m)
    = varTerm (x0 (ix2 b i)) (x1 (ix3 o i m)) (x2 (ix3 o i m)) (x3 (ix3 o i m)) (x4 (ix2 o i)) (x5 (ix2 o i)) := by
  rw [val_main_v63_apply, v58_at, v62_at]
  rfl

/-! ## The sums over the inducing points -/

/-- An edge's mean. -/
theorem v54_at : val_main_v54 (F := Ideal) x0 x1 x2 x4 x5 (ix3 b o i)
    = ∑ m : Fin 20, meanTerm (x0 (ix2 b i)) (x1 (ix3 o i m)) (x2 (ix3 o i m)) (x4 (ix2 o i)) (x5 (ix2 o i)) := by
  rw [val_main_v54_apply, val_main_cst_5_apply, Ideal.ofBits_def, Cert.Lits.ofBits_zero, zero_add]
  refine Finset.sum_congr rfl fun m _ => ?_
  rw [show idx_main_v54 (ix3 b o i) m = ix4 b o i m from by idx4, v53_at]

/-- An edge's variance before it is cut off at zero. -/
theorem v64_at : val_main_v64 (F := Ideal) x0 x1 x2 x3 x4 x5 (ix3 b o i)
    = ∑ m : Fin 20, varTerm (x0 (ix2 b i)) (x1 (ix3 o i m)) (x2 (ix3 o i m)) (x3 (ix3 o i m))
        (x4 (ix2 o i)) (x5 (ix2 o i)) := by
  rw [val_main_v64_apply, val_main_cst_6_apply, Ideal.ofBits_def, Cert.Lits.ofBits_zero, zero_add]
  refine Finset.sum_congr rfl fun m _ => ?_
  rw [show idx_main_v64 (ix3 b o i) m = ix4 b o i m from by idx4, v63_at]

/-- An edge's variance: its positive part. -/
theorem v65_at : val_main_v65 (F := Ideal) x0 x1 x2 x3 x4 x5 (ix3 b o i)
    = max 0 (∑ m : Fin 20, varTerm (x0 (ix2 b i)) (x1 (ix3 o i m)) (x2 (ix3 o i m)) (x3 (ix3 o i m))
        (x4 (ix2 o i)) (x5 (ix2 o i))) := by
  rw [val_main_v65_apply, val_main_call3_v1_apply, val_main_call3_v0_apply, val_main_cst_7_apply,
    Ideal.ofBits_def, Cert.Lits.ofBits_zero, v64_at]
  rfl

/-! ## The two results -/

/-- The reference's first result is the specification's mean array. -/
theorem mean_eq (x0 : (⟨S1024x64, .f32⟩ : BufTy).Contents (Elt Ideal))
    (x1 x2 : (⟨S64x64x20, .f32⟩ : BufTy).Contents (Elt Ideal))
    (x4 x5 : (⟨S64x64, .f32⟩ : BufTy).Contents (Elt Ideal)) :
    Cert.ReferenceIdeal.Read.val_main_v66 (F := Ideal) x0 x1 x2 x4 x5 = Cert.Spec.yMean x0 x1 x2 x4 x5 := by
  funext j
  obtain ⟨b, o, rfl⟩ : ∃ (b : Fin 1024) (o : Fin 64), j = ix2 b o := ⟨j 0, j 1, eq_ix2 j⟩
  rw [val_main_v66_apply, val_main_cst_8_apply, Ideal.ofBits_def, Cert.Lits.ofBits_zero, zero_add]
  show _ = ∑ i : Fin 64, ∑ m : Fin 20,
    meanTerm (x0 (ix2 b i)) (x1 (ix3 o i m)) (x2 (ix3 o i m)) (x4 (ix2 o i)) (x5 (ix2 o i))
  refine Finset.sum_congr rfl fun i _ => ?_
  rw [show idx_main_v66 (ix2 b o) i = ix3 b o i from by idx3, v54_at]

/-- The reference's second result is the specification's variance array. -/
theorem var_eq (x0 : (⟨S1024x64, .f32⟩ : BufTy).Contents (Elt Ideal))
    (x1 x2 x3 : (⟨S64x64x20, .f32⟩ : BufTy).Contents (Elt Ideal))
    (x4 x5 : (⟨S64x64, .f32⟩ : BufTy).Contents (Elt Ideal)) :
    Cert.ReferenceIdeal.Read.val_main_v67 (F := Ideal) x0 x1 x2 x3 x4 x5 = Cert.Spec.yVar x0 x1 x2 x3 x4 x5 := by
  funext j
  obtain ⟨b, o, rfl⟩ : ∃ (b : Fin 1024) (o : Fin 64), j = ix2 b o := ⟨j 0, j 1, eq_ix2 j⟩
  rw [val_main_v67_apply, val_main_cst_9_apply, Ideal.ofBits_def, Cert.Lits.ofBits_zero, zero_add]
  show _ = ∑ i : Fin 64, max 0 (∑ m : Fin 20,
    varTerm (x0 (ix2 b i)) (x1 (ix3 o i m)) (x2 (ix3 o i m)) (x3 (ix3 o i m)) (x4 (ix2 o i)) (x5 (ix2 o i)))
  refine Finset.sum_congr rfl fun i _ => ?_
  rw [show idx_main_v67 (ix2 b o) i = ix3 b o i from by idx3, v65_at]

end Cert.RefSpec

end
-- ==== Proof.lean ====
/-
  The kernel and its reference compute the same two arrays on the extended reals.

  Both programs take a batch `x` [1024,64], inducing locations, weight means and weight log-variances [64,64,20] and two
  [64,64] edge parameters, and return for each batch row and output unit the mean and the variance of a layer of
  Gaussian-process edges with an RBF kernel (Proof/Spec.lean states the two arrays entry by entry). The reference forms
  the four-axis arrays over (row, output unit, input unit, inducing point) and sums the last axis, then the input-unit
  axis. The kernel moves the inducing axis to the front on the host and, per block of 128 rows, runs a loop over the
  twenty inducing points that carries the two sums over (row, output unit, input unit), then sums the input-unit axis.
  On the extended reals the loop's running sums are the reference's sums (addition is commutative and associative there
  with no side condition, and adding a gain then taking away a loss is adding their difference); the kernel's `0 - d` is
  the reference's `-d`; and the kernel's constant `2e-6` is exactly the reference's product `2 * 1e-6`. No fact about
  the inputs is used: the equality holds at every extended real.

  Proof/KTrip, KPay, KLoop, KFinal read the kernel's run as the specification; Proof/RefSpec reads the reference's.
-/
import proofs.«125897_j63934883168343_2_alg».proof.Defs
import proofs.«125897_j63934883168343_2_alg».proof.Proof.Gen.Kernel
import proofs.«125897_j63934883168343_2_alg».proof.Proof.Gen.Kernel.Skeleton
import proofs.«125897_j63934883168343_2_alg».proof.Proof.Gen.Kernel.Loops
import proofs.«125897_j63934883168343_2_alg».proof.Proof.Gen.Kernel.Launch
import proofs.«125897_j63934883168343_2_alg».proof.Proof.Gen.Kernel.Points
import proofs.«125897_j63934883168343_2_alg».proof.Proof.Gen.Kernel.Frame
import proofs.«125897_j63934883168343_2_alg».proof.Proof.Gen.KernelIdeal
import proofs.«125897_j63934883168343_2_alg».proof.Proof.Gen.KernelIdeal.Skeleton
import proofs.«125897_j63934883168343_2_alg».proof.Proof.Gen.KernelIdeal.Loops
import proofs.«125897_j63934883168343_2_alg».proof.Proof.Gen.KernelIdeal.Launch
import proofs.«125897_j63934883168343_2_alg».proof.Proof.Gen.KernelIdeal.Points
import proofs.«125897_j63934883168343_2_alg».proof.Proof.Gen.KernelIdeal.Frame
import proofs.«125897_j63934883168343_2_alg».proof.Proof.Gen.ReferenceIdeal
import proofs.«125897_j63934883168343_2_alg».proof.Proof.Gen.Pre_finite_inputs
import proofs.«125897_j63934883168343_2_alg».proof.Proof.Gen.KernelIdeal.Value
import proofs.«125897_j63934883168343_2_alg».proof.Proof.Gen.ReferenceIdeal.Run
import proofs.«125897_j63934883168343_2_alg».proof.Proof.Gen.ReferenceIdeal.Read
import proofs.«125897_j63934883168343_2_alg».proof.Proof.KFinal
import proofs.«125897_j63934883168343_2_alg».proof.Proof.RefSpec
import Idealize.ShloMosaic.Adequacy
import Idealize.ShloMosaic.Init

noncomputable section

namespace Cert.Proof

open Idealize.ShloMosaic Idealize.SL.Sem

section
variable [Cert.Kernel.Facts] [Cert.KernelIdeal.Facts] [Cert.ReferenceIdeal.Facts] [Cert.Pre_finite_inputs.Facts]

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments, both runs end with the specification's mean and variance arrays of those
    arguments: the kernel's by its blocks (KFinal), the reference's stage by stage (RefSpec). -/
theorem algebraic : Cert.algebraic_KernelIdeal_ReferenceIdeal := by
  intro m ρ m' ρ' _ hagree
  refine ⟨fun c => Cert.KernelIdeal.Final.GM m c, fun c => Cert.KernelIdeal.Final.GV m c,
    Cert.KernelIdeal.Final.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v66_eq, Cert.RefSpec.mean_eq, (hagree c).1, (hagree c).2.1, (hagree c).2.2.1,
      (hagree c).2.2.2.2.1, (hagree c).2.2.2.2.2]
  · rw [Cert.ReferenceIdeal.Read.val_main_v67_eq, Cert.RefSpec.var_eq, (hagree c).1, (hagree c).2.1, (hagree c).2.2.1,
      (hagree c).2.2.2.1, (hagree c).2.2.2.2.1, (hagree c).2.2.2.2.2]

end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
